-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S64x32 : Shape := ⟨2, ![64, 32]⟩
abbrev S32 : Shape := ⟨1, ![32]⟩
abbrev S32x12 : Shape := ⟨2, ![32, 12]⟩
abbrev S12 : Shape := ⟨1, ![12]⟩
abbrev S12x8 : Shape := ⟨2, ![12, 8]⟩
abbrev S8 : Shape := ⟨1, ![8]⟩
abbrev S8x6 : Shape := ⟨2, ![8, 6]⟩
abbrev S6 : Shape := ⟨1, ![6]⟩
abbrev S6x2 : Shape := ⟨2, ![6, 2]⟩
abbrev S2 : Shape := ⟨1, ![2]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x12 : S_.BroadcastsInDim S32x12 (![] : Fin 0 → Fin S32x12.rank)
  reducesTo_S32x12_S_d0_1 : S32x12.ReducesTo [0, 1] S_
  bcast_S_S12 : S_.BroadcastsInDim S12 (![] : Fin 0 → Fin S12.rank)
  reducesTo_S12_S_d0 : S12.ReducesTo [0] S_
  bcast_S_S12x8 : S_.BroadcastsInDim S12x8 (![] : Fin 0 → Fin S12x8.rank)
  reducesTo_S12x8_S_d0_1 : S12x8.ReducesTo [0, 1] S_
  bcast_S_S8 : S_.BroadcastsInDim S8 (![] : Fin 0 → Fin S8.rank)
  reducesTo_S8_S_d0 : S8.ReducesTo [0] S_
  bcast_S_S8x6 : S_.BroadcastsInDim S8x6 (![] : Fin 0 → Fin S8x6.rank)
  reducesTo_S8x6_S_d0_1 : S8x6.ReducesTo [0, 1] S_
  bcast_S_S6 : S_.BroadcastsInDim S6 (![] : Fin 0 → Fin S6.rank)
  reducesTo_S6_S_d0 : S6.ReducesTo [0] S_
  bcast_S_S6x2 : S_.BroadcastsInDim S6x2 (![] : Fin 0 → Fin S6x2.rank)
  reducesTo_S6x2_S_d0_1 : S6x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg7 : FVec F S8x6 .f32) (main_arg8 : FVec F S6 .f32) (main_arg9 : FVec F S6x2 .f32) (main_arg10 : FVec F S2 .f32) (main_v33 : IVec S_ 1) : IVec S_ 1 :=
  let main_v34 : FVec F S8x6 .f32 := Host.absf main_arg7
  let main_cst_12 : FVec F S_ .f32 := constant S_ .f32 0x7F800000#32
  let main_v35 : FVec F S8x6 .f32 := broadcastInDim S8x6 ![] bcast_S_S8x6 main_cst_12
  let main_v36 : IVec S8x6 1 := cmpf .olt main_v34 main_v35
  let main_c_13 : IVec S_ 1 := constantI S_ 1 1#1
  let main_v37 : IVec S_ 1 := (fun x v => Host.reduce IntOp.andi x v reducesTo_S8x6_S_d0_1 h_S_) main_v36 main_c_13
  let main_v38 : IVec S_ 1 := andi main_v33 main_v37
  let main_v39 : FVec F S6 .f32 := Host.absf main_arg8
  let main_cst_14 : FVec F S_ .f32 := constant S_ .f32 0x7F800000#32
  let main_v40 : FVec F S6 .f32 := broadcastInDim S6 ![] bcast_S_S6 main_cst_14
  let main_v41 : IVec S6 1 := cmpf .olt main_v39 main_v40
  let main_c_15 : IVec S_ 1 := constantI S_ 1 1#1
  let main_v42 : IVec S_ 1 := (fun x v => Host.reduce IntOp.andi x v reducesTo_S6_S_d0 h_S_) main_v41 main_c_15
  let main_v43 : IVec S_ 1 := andi main_v38 main_v42
  let main_v44 : FVec F S6x2 .f32 := Host.absf main_arg9
  let main_cst_16 : FVec F S_ .f32 := constant S_ .f32 0x7F800000#32
  let main_v45 : FVec F S6x2 .f32 := broadcastInDim S6x2 ![] bcast_S_S6x2 main_cst_16
  let main_v46 : IVec S6x2 1 := cmpf .olt main_v44 main_v45
  let main_c_17 : IVec S_ 1 := constantI S_ 1 1#1
  let main_v47 : IVec S_ 1 := (fun x v => Host.reduce IntOp.andi x v reducesTo_S6x2_S_d0_1 h_S_) main_v46 main_c_17
  let main_v48 : IVec S_ 1 := andi main_v43 main_v47
  let main_v49 : FVec F S2 .f32 := Host.absf main_arg10
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg4 : FVec F S12 .f32) (main_arg5 : FVec F S12x8 .f32) (main_arg6 : FVec F S8 .f32) (main_arg7 : FVec F S8x6 .f32) (main_arg8 : FVec F S6 .f32) (main_arg9 : FVec F S6x2 .f32) (main_arg10 : FVec F S2 .f32) (main_v13 : IVec S_ 1) (main_v16 : IVec S32x12 1) : IVec S_ 1 :=
  let main_c_5 : IVec S_ 1 := constantI S_ 1 1#1
  let main_v17 : IVec S_ 1 := (fun x v => Host.reduce IntOp.andi x v reducesTo_S32x12_S_d0_1 h_S_) main_v16 main_c_5
  let main_v18 : IVec S_ 1 := andi main_v13 main_v17
  let main_v19 : FVec F S12 .f32 := Host.absf main_arg4
  let main_cst_6 : FVec F S_ .f32 := constant S_ .f32 0x7F800000#32
  let main_v20 : FVec F S12 .f32 := broadcastInDim S12 ![] bcast_S_S12 main_cst_6
  let main_v21 : IVec S12 1 := cmpf .olt main_v19 main_v20
  let main_c_7 : IVec S_ 1 := constantI S_ 1 1#1
  let main_v22 : IVec S_ 1 := (fun x v => Host.reduce IntOp.andi x v reducesTo_S12_S_d0 h_S_) main_v21 main_c_7
  let main_v23 : IVec S_ 1 := andi main_v18 main_v22
  let main_v24 : FVec F S12x8 .f32 := Host.absf main_arg5
  let main_cst_8 : FVec F S_ .f32 := constant S_ .f32 0x7F800000#32
  let main_v25 : FVec F S12x8 .f32 := broadcastInDim S12x8 ![] bcast_S_S12x8 main_cst_8
  let main_v26 : IVec S12x8 1 := cmpf .olt main_v24 main_v25
  let main_c_9 : IVec S_ 1 := constantI S_ 1 1#1
  let main_v27 : IVec S_ 1 := (fun x v => Host.reduce IntOp.andi x v reducesTo_S12x8_S_d0_1 h_S_) main_v26 main_c_9
  let main_v28 : IVec S_ 1 := andi main_v23 main_v27
  let main_v29 : FVec F S8 .f32 := Host.absf main_arg6
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S1048576x64 .f32) (main_arg1 : FVec F S64x32 .f32) (main_arg2 : FVec F S32 .f32) (main_arg3 : FVec F S32x12 .f32) (main_arg4 : FVec F S12 .f32) (main_arg5 : FVec F S12x8 .f32) (main_arg6 : FVec F S8 .f32) (main_arg7 : FVec F S8x6 .f32) (main_arg8 : FVec F S6 .f32) (main_arg9 : FVec F S6x2 .f32) (main_arg10 : FVec F S2 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S64x32 .f32 := Host.absf main_arg1
  let main_cst_0 : FVec F S_ .f32 := constant S_ .f32 0x7F800000#32
  let main_v5 : FVec F S64x32 .f32 := broadcastInDim S64x32 ![] bcast_S_S64x32 main_cst_0
  let main_v6 : IVec S64x32 1 := cmpf .olt main_v4 main_v5
  let main_c_1 : IVec S_ 1 := constantI S_ 1 1#1
  let main_v7 : IVec S_ 1 := (fun x v => Host.reduce IntOp.andi x v reducesTo_S64x32_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x12 .f32 := Host.absf main_arg3
  let main_cst_4 : FVec F S_ .f32 := constant S_ .f32 0x7F800000#32
  let main_v15 : FVec F S32x12 .f32 := broadcastInDim S32x12 ![] bcast_S_S32x12 main_cst_4
  let main_v16 : IVec S32x12 1 := cmpf .olt main_v14 main_v15
  fn_part1 (F := F) main_arg4 main_arg5 main_arg6 main_arg7 main_arg8 main_arg9 main_arg10 main_v13 main_v16
-- ==== Kernel.lean ====
abbrev S1048576x64 : Shape := ⟨2, ![1048576, 64]⟩
abbrev S64x32 : Shape := ⟨2, ![64, 32]⟩
abbrev S32 : Shape := ⟨1, ![32]⟩
abbrev S32x12 : Shape := ⟨2, ![32, 12]⟩
abbrev S12 : Shape := ⟨1, ![12]⟩
abbrev S12x8 : Shape := ⟨2, ![12, 8]⟩
abbrev S8 : Shape := ⟨1, ![8]⟩
abbrev S8x6 : Shape := ⟨2, ![8, 6]⟩
abbrev S6 : Shape := ⟨1, ![6]⟩
abbrev S6x2 : Shape := ⟨2, ![6, 2]⟩
abbrev S2 : Shape := ⟨1, ![2]⟩
abbrev S1x32 : Shape := ⟨2, ![1, 32]⟩
abbrev S1x12 : Shape := ⟨2, ![1, 12]⟩
abbrev S1x8 : Shape := ⟨2, ![1, 8]⟩
abbrev S1x6 : Shape := ⟨2, ![1, 6]⟩
abbrev S1x2 : Shape := ⟨2, ![1, 2]⟩
abbrev S1048576x2 : Shape := ⟨2, ![1048576, 2]⟩
abbrev S16384x64 : Shape := ⟨2, ![16384, 64]⟩
abbrev S16384x2 : Shape := ⟨2, ![16384, 2]⟩
abbrev S4096x64 : Shape := ⟨2, ![4096, 64]⟩
abbrev S4096x32 : Shape := ⟨2, ![4096, 32]⟩
abbrev S4096x12 : Shape := ⟨2, ![4096, 12]⟩
abbrev S4096x8 : Shape := ⟨2, ![4096, 8]⟩
abbrev S4096x6 : Shape := ⟨2, ![4096, 6]⟩
abbrev S4096x2 : Shape := ⟨2, ![4096, 2]⟩

abbrev nBuf : Space → Nat
  | .hbm => 17
  | .vmem => 14
  | .smem => 0
  | _ => 0

abbrev bufTy : (tb : Table) → Fin (tcTables nBuf tb) → BufTy
  | .hbm, ⟨0, _⟩ => ⟨S1048576x64, .f32⟩
  | .hbm, ⟨1, _⟩ => ⟨S64x32, .f32⟩
  | .hbm, ⟨2, _⟩ => ⟨S32, .f32⟩
  | .hbm, ⟨3, _⟩ => ⟨S32x12, .f32⟩
  | .hbm, ⟨4, _⟩ => ⟨S12, .f32⟩
  | .hbm, ⟨5, _⟩ => ⟨S12x8, .f32⟩
  | .hbm, ⟨6, _⟩ => ⟨S8, .f32⟩
  | .hbm, ⟨7, _⟩ => ⟨S8x6, .f32⟩
  | .hbm, ⟨8, _⟩ => ⟨S6, .f32⟩
  | .hbm, ⟨9, _⟩ => ⟨S6x2, .f32⟩
  | .hbm, ⟨10, _⟩ => ⟨S2, .f32⟩
  | .hbm, ⟨11, _⟩ => ⟨S1x32, .f32⟩
  | .hbm, ⟨12, _⟩ => ⟨S1x12, .f32⟩
  | .hbm, ⟨13, _⟩ => ⟨S1x8, .f32⟩
  | .hbm, ⟨14, _⟩ => ⟨S1x6, .f32⟩
  | .hbm, ⟨15, _⟩ => ⟨S1x2, .f32⟩
  | .hbm, ⟨16, _⟩ => ⟨S1048576x2, .f32⟩
  | .local _ .vmem, ⟨0, _⟩ => ⟨S16384x64, .f32⟩
  | .local _ .vmem, ⟨1, _⟩ => ⟨S16384x64, .f32⟩
  | .local _ .vmem, ⟨2, _⟩ => ⟨S64x32, .f32⟩
  | .local _ .vmem, ⟨3, _⟩ => ⟨S1x32, .f32⟩
  | .local _ .vmem, ⟨4, _⟩ => ⟨S32x12, .f32⟩
  | .local _ .vmem, ⟨5, _⟩ => ⟨S1x12, .f32⟩
  | .local _ .vmem, ⟨6, _⟩ => ⟨S12x8, .f32⟩
  | .local _ .vmem, ⟨7, _⟩ => ⟨S1x8, .f32⟩
  | .local _ .vmem, ⟨8, _⟩ => ⟨S8x6, .f32⟩
  | .local _ .vmem, ⟨9, _⟩ => ⟨S1x6, .f32⟩
  | .local _ .vmem, ⟨10, _⟩ => ⟨S6x2, .f32⟩
  | .local _ .vmem, ⟨11, _⟩ => ⟨S1x2, .f32⟩
  | .local _ .vmem, ⟨12, _⟩ => ⟨S16384x2, .f32⟩
  | .local _ .vmem, ⟨13, _⟩ => ⟨S16384x2, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c4_i32 : BitVec 32 := 4#32
  let v20 : BitVec 32 := Scalar.addi c0_i32 c4_i32
  let c1_i32 : BitVec 32 := 1#32
  ⟨c0_i32, v20, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c4096_i32 : BitVec 32 := 4096#32
  let v21 : BitVec 32 := Scalar.muli arg13 c4096_i32
  v21
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c4096_i32 : BitVec 32 := 4096#32
  let v21 : BitVec 32 := Scalar.muli arg13 c4096_i32
  let v22 : BitVec 32 := v21
  let v23 : Index := Scalar.indexCast v22
  let c0_20 : Index := 0#32
  ![v23.toNat, 0]
def k0_off2 (k0_t1 : Fin k0_t1_loop.trips) : Fin 2 → Nat :=
  let c0_i32 : BitVec 32 := 0#32
  let c1_i32 : BitVec 32 := 1#32
  let arg13 : BitVec 32 := Scf.iv c0_i32 c1_i32 k0_t1
  let c4096_i32 : BitVec 32 := 4096#32
  let v21 : BitVec 32 := Scalar.muli arg13 c4096_i32
  let v22 : BitVec 32 := v21
  let v53 : Index := Scalar.indexCast v22
  let c0_29 : Index := 0#32
  ![v53.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x12 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x12 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S12x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x6 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x6 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S6x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S16384x2 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S32_S1x32 : S32.ShapeCasts S1x32
  shapeCasts_S12_S1x12 : S12.ShapeCasts S1x12
  shapeCasts_S8_S1x8 : S8.ShapeCasts S1x8
  shapeCasts_S6_S1x6 : S6.ShapeCasts S1x6
  shapeCasts_S2_S1x2 : S2.ShapeCasts S1x2
  inb_S64x32_S64x32_0_0 : ∀ a, (![0, 0] : Fin 2 → Nat) a + S64x32.size a ≤ S64x32.size a
  h_S64x32 : 0 < S64x32.numel
  bitsLt_bf16_f32 : FTy.bits .bf16 < FTy.bits .f32
  inb_S32x12_S32x12_0_0 : ∀ a, (![0, 0] : Fin 2 → Nat) a + S32x12.size a ≤ S32x12.size a
  h_S32x12 : 0 < S32x12.numel
  inb_S12x8_S12x8_0_0 : ∀ a, (![0, 0] : Fin 2 → Nat) a + S12x8.size a ≤ S12x8.size a
  h_S12x8 : 0 < S12x8.numel
  inb_S8x6_S8x6_0_0 : ∀ a, (![0, 0] : Fin 2 → Nat) a + S8x6.size a ≤ S8x6.size a
  h_S8x6 : 0 < S8x6.numel
  inb_S6x2_S6x2_0_0 : ∀ a, (![0, 0] : Fin 2 → Nat) a + S6x2.size a ≤ S6x2.size a
  h_S6x2 : 0 < S6x2.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  inb_S1x12_S1x12_0_0 : ∀ a, (![0, 0] : Fin 2 → Nat) a + S1x12.size a ≤ S1x12.size a
  h_S1x12 : 0 < S1x12.numel
  shapeCasts_S1x12_S1x12 : S1x12.ShapeCasts S1x12
  inb_S1x8_S1x8_0_0 : ∀ a, (![0, 0] : Fin 2 → Nat) a + S1x8.size a ≤ S1x8.size a
  h_S1x8 : 0 < S1x8.numel
  shapeCasts_S1x8_S1x8 : S1x8.ShapeCasts S1x8
  inb_S1x6_S1x6_0_0 : ∀ a, (![0, 0] : Fin 2 → Nat) a + S1x6.size a ≤ S1x6.size a
  h_S1x6 : 0 < S1x6.numel
  shapeCasts_S1x6_S1x6 : S1x6.ShapeCasts S1x6
  inb_S1x2_S1x2_0_0 : ∀ a, (![0, 0] : Fin 2 → Nat) a + S1x2.size a ≤ S1x2.size a
  h_S1x2 : 0 < S1x2.numel
  shapeCasts_S1x2_S1x2 : S1x2.ShapeCasts S1x2
  h_S4096x64 : 0 < S4096x64.numel
  broadcasts_S1x32_S4096x32 : S1x32.Broadcasts S4096x32
  broadcasts_S1x12_S4096x12 : S1x12.Broadcasts S4096x12
  broadcasts_S1x8_S4096x8 : S1x8.Broadcasts S4096x8
  broadcasts_S1x6_S4096x6 : S1x6.Broadcasts S4096x6
  broadcasts_S1x2_S4096x2 : S1x2.Broadcasts S4096x2
  h_S4096x2 : 0 < S4096x2.numel
  dot_S4096x64_S64x32_S4096x32_1_0_0_1_n_n_wf : DotDims.WF S4096x64 S64x32 S4096x32 [1] [0] [0] [1] [] []
  dot_S4096x32_S32x12_S4096x12_1_0_0_1_n_n_wf : DotDims.WF S4096x32 S32x12 S4096x12 [1] [0] [0] [1] [] []
  dot_S4096x12_S12x8_S4096x8_1_0_0_1_n_n_wf : DotDims.WF S4096x12 S12x8 S4096x8 [1] [0] [0] [1] [] []
  dot_S4096x8_S8x6_S4096x6_1_0_0_1_n_n_wf : DotDims.WF S4096x8 S8x6 S4096x6 [1] [0] [0] [1] [] []
  dot_S4096x6_S6x2_S4096x2_1_0_0_1_n_n_wf : DotDims.WF S4096x6 S6x2 S4096x2 [1] [0] [0] [1] [] []
  hrank0 : 0 < grid0.rank
  k0_t1_ok : k0_t1_loop.OK
  k0_mult1_dvd : ∀ k0_t1 : Fin k0_t1_loop.trips, 4096 ∣ (k0_mult1 k0_t1).toNat
  k0_off1_inb : ∀ k0_t1 : Fin k0_t1_loop.trips, ∀ a, (k0_off1 k0_t1) a + S4096x64.size a ≤ S16384x64.size a
  k0_off2_inb : ∀ k0_t1 : Fin k0_t1_loop.trips, ∀ a, (k0_off2 k0_t1) a + S4096x2.size a ≤ S16384x2.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x64.size a ≤ S1048576x64.size a
  hwx0_0 : ∀ i : grid0.Coords, EltTy.bits .f32 = 32 ∨ (Rect.block (s := S1048576x64) S16384x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x32.size a ≤ S64x32.size a
  hwx0_1 : ∀ i : grid0.Coords, EltTy.bits .f32 = 32 ∨ (Rect.block (s := S64x32) S64x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x12.size a ≤ S32x12.size a
  hwx0_3 : ∀ i : grid0.Coords, EltTy.bits .f32 = 32 ∨ (Rect.block (s := S32x12) S32x12.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x12.size a ≤ S1x12.size a
  hwx0_4 : ∀ i : grid0.Coords, EltTy.bits .f32 = 32 ∨ (Rect.block (s := S1x12) S1x12.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S12x8.size a ≤ S12x8.size a
  hwx0_5 : ∀ i : grid0.Coords, EltTy.bits .f32 = 32 ∨ (Rect.block (s := S12x8) S12x8.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x8.size a ≤ S1x8.size a
  hwx0_6 : ∀ i : grid0.Coords, EltTy.bits .f32 = 32 ∨ (Rect.block (s := S1x8) S1x8.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8x6.size a ≤ S8x6.size a
  hwx0_7 : ∀ i : grid0.Coords, EltTy.bits .f32 = 32 ∨ (Rect.block (s := S8x6) S8x6.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x6.size a ≤ S1x6.size a
  hwx0_8 : ∀ i : grid0.Coords, EltTy.bits .f32 = 32 ∨ (Rect.block (s := S1x6) S1x6.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S6x2.size a ≤ S6x2.size a
  hwx0_9 : ∀ i : grid0.Coords, EltTy.bits .f32 = 32 ∨ (Rect.block (s := S6x2) S6x2.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x2.size a ≤ S1x2.size a
  hwx0_10 : ∀ i : grid0.Coords, EltTy.bits .f32 = 32 ∨ (Rect.block (s := S1x2) S1x2.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S16384x2.size a ≤ S1048576x2.size a
  hwx0_11 : ∀ i : grid0.Coords, EltTy.bits .f32 = 32 ∨ (Rect.block (s := S1048576x2) S16384x2.size (cc0_transform_11 i) (hinb0_11 i)).WholeWords (EltTy.packing .f32)

variable [Facts₀]

def dot_S4096x64_S64x32_S4096x32_1_0_0_1_n_n : DotDims S4096x64 S64x32 S4096x32 where
  lhsContracting := [1]
  rhsContracting := [0]
  lhsNonContracting := [0]
  rhsNonContracting := [1]
  lhsBatch := []
  rhsBatch := []
  wf := dot_S4096x64_S64x32_S4096x32_1_0_0_1_n_n_wf
def dot_S4096x32_S32x12_S4096x12_1_0_0_1_n_n : DotDims S4096x32 S32x12 S4096x12 where
  lhsContracting := [1]
  rhsContracting := [0]
  lhsNonContracting := [0]
  rhsNonContracting := [1]
  lhsBatch := []
  rhsBatch := []
  wf := dot_S4096x32_S32x12_S4096x12_1_0_0_1_n_n_wf
def dot_S4096x12_S12x8_S4096x8_1_0_0_1_n_n : DotDims S4096x12 S12x8 S4096x8 where
  lhsContracting := [1]
  rhsContracting := [0]
  lhsNonContracting := [0]
  rhsNonContracting := [1]
  lhsBatch := []
  rhsBatch := []
  wf := dot_S4096x12_S12x8_S4096x8_1_0_0_1_n_n_wf
def dot_S4096x8_S8x6_S4096x6_1_0_0_1_n_n : DotDims S4096x8 S8x6 S4096x6 where
  lhsContracting := [1]
  rhsContracting := [0]
  lhsNonContracting := [0]
  rhsNonContracting := [1]
  lhsBatch := []
  rhsBatch := []
  wf := dot_S4096x8_S8x6_S4096x6_1_0_0_1_n_n_wf
def dot_S4096x6_S6x2_S4096x2_1_0_0_1_n_n : DotDims S4096x6 S6x2 S4096x2 where
  lhsContracting := [1]
  rhsContracting := [0]
  lhsNonContracting := [0]
  rhsNonContracting := [1]
  lhsBatch := []
  rhsBatch := []
  wf := dot_S4096x6_S6x2_S4096x2_1_0_0_1_n_n_wf

abbrev win0_0 : Pipeline.Window sig grid0 :=
  Pipeline.Window.ofSpec (Memref.whole main_arg0) S16384x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S32x12.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x12.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S12x8.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x8.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S8x6.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S1x6.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S6x2.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S1x2.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v5) S16384x2.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S64x32 : Shape := ⟨2, ![64, 32]⟩
abbrev S32 : Shape := ⟨1, ![32]⟩
abbrev S32x12 : Shape := ⟨2, ![32, 12]⟩
abbrev S12 : Shape := ⟨1, ![12]⟩
abbrev S12x8 : Shape := ⟨2, ![12, 8]⟩
abbrev S8 : Shape := ⟨1, ![8]⟩
abbrev S8x6 : Shape := ⟨2, ![8, 6]⟩
abbrev S6 : Shape := ⟨1, ![6]⟩
abbrev S6x2 : Shape := ⟨2, ![6, 2]⟩
abbrev S2 : Shape := ⟨1, ![2]⟩
abbrev S1048576x32 : Shape := ⟨2, ![1048576, 32]⟩
abbrev S1x32 : Shape := ⟨2, ![1, 32]⟩
abbrev S_ : Shape := ⟨0, ![]⟩
abbrev S1048576x12 : Shape := ⟨2, ![1048576, 12]⟩
abbrev S1x12 : Shape := ⟨2, ![1, 12]⟩
abbrev S1048576x8 : Shape := ⟨2, ![1048576, 8]⟩
abbrev S1x8 : Shape := ⟨2, ![1, 8]⟩
abbrev S1048576x6 : Shape := ⟨2, ![1048576, 6]⟩
abbrev S1x6 : Shape := ⟨2, ![1, 6]⟩
abbrev S1048576x2 : Shape := ⟨2, ![1048576, 2]⟩
abbrev S1x2 : Shape := ⟨2, ![1, 2]⟩

abbrev nBuf : Space → Nat
  | .hbm => 43
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S64x32, .f32⟩
  | .hbm, ⟨2, _⟩ => ⟨S32, .f32⟩
  | .hbm, ⟨3, _⟩ => ⟨S32x12, .f32⟩
  | .hbm, ⟨4, _⟩ => ⟨S12, .f32⟩
  | .hbm, ⟨5, _⟩ => ⟨S12x8, .f32⟩
  | .hbm, ⟨6, _⟩ => ⟨S8, .f32⟩
  | .hbm, ⟨7, _⟩ => ⟨S8x6, .f32⟩
  | .hbm, ⟨8, _⟩ => ⟨S6, .f32⟩
  | .hbm, ⟨9, _⟩ => ⟨S6x2, .f32⟩
  | .hbm, ⟨10, _⟩ => ⟨S2, .f32⟩
  | .hbm, ⟨11, _⟩ => ⟨S1048576x32, .f32⟩
  | .hbm, ⟨12, _⟩ => ⟨S1x32, .f32⟩
  | .hbm, ⟨13, _⟩ => ⟨S1048576x32, .f32⟩
  | .hbm, ⟨14, _⟩ => ⟨S1048576x32, .f32⟩
  | .hbm, ⟨15, _⟩ => ⟨S_, .f32⟩
  | .hbm, ⟨16, _⟩ => ⟨S1048576x32, .f32⟩
  | .hbm, ⟨17, _⟩ => ⟨S1048576x32, .f32⟩
  | .hbm, ⟨18, _⟩ => ⟨S1048576x12, .f32⟩
  | .hbm, ⟨19, _⟩ => ⟨S1x12, .f32⟩
  | .hbm, ⟨20, _⟩ => ⟨S1048576x12, .f32⟩
  | .hbm, ⟨21, _⟩ => ⟨S1048576x12, .f32⟩
  | .hbm, ⟨22, _⟩ => ⟨S_, .f32⟩
  | .hbm, ⟨23, _⟩ => ⟨S1048576x12, .f32⟩
  | .hbm, ⟨24, _⟩ => ⟨S1048576x12, .f32⟩
  | .hbm, ⟨25, _⟩ => ⟨S1048576x8, .f32⟩
  | .hbm, ⟨26, _⟩ => ⟨S1x8, .f32⟩
  | .hbm, ⟨27, _⟩ => ⟨S1048576x8, .f32⟩
  | .hbm, ⟨28, _⟩ => ⟨S1048576x8, .f32⟩
  | .hbm, ⟨29, _⟩ => ⟨S_, .f32⟩
  | .hbm, ⟨30, _⟩ => ⟨S1048576x8, .f32⟩
  | .hbm, ⟨31, _⟩ => ⟨S1048576x8, .f32⟩
  | .hbm, ⟨32, _⟩ => ⟨S1048576x6, .f32⟩
  | .hbm, ⟨33, _⟩ => ⟨S1x6, .f32⟩
  | .hbm, ⟨34, _⟩ => ⟨S1048576x6, .f32⟩
  | .hbm, ⟨35, _⟩ => ⟨S1048576x6, .f32⟩
  | .hbm, ⟨36, _⟩ => ⟨S_, .f32⟩
  | .hbm, ⟨37, _⟩ => ⟨S1048576x6, .f32⟩
  | .hbm, ⟨38, _⟩ => ⟨S1048576x6, .f32⟩
  | .hbm, ⟨39, _⟩ => ⟨S1048576x2, .f32⟩
  | .hbm, ⟨40, _⟩ => ⟨S1x2, .f32⟩
  | .hbm, ⟨41, _⟩ => ⟨S1048576x2, .f32⟩
  | .hbm, ⟨42, _⟩ => ⟨S1048576x2, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call1_cst : Ref sig .tc := ⟨.hbm, 22, rfl⟩
abbrev main_call1_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_call2_cst : Ref sig .tc := ⟨.hbm, 29, rfl⟩
abbrev main_call2_v0 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_call3_cst : Ref sig .tc := ⟨.hbm, 36, rfl⟩
abbrev main_call3_v0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S1048576x32_0_1 : S1x32.BroadcastsInDim S1048576x32 (![0, 1] : Fin 2 → Fin S1048576x32.rank)
  bcast_S_S1048576x32 : S_.BroadcastsInDim S1048576x32 (![] : Fin 0 → Fin S1048576x32.rank)
  bcast_S12_S1x12_1 : S12.BroadcastsInDim S1x12 (![1] : Fin 1 → Fin S1x12.rank)
  bcast_S1x12_S1048576x12_0_1 : S1x12.BroadcastsInDim S1048576x12 (![0, 1] : Fin 2 → Fin S1048576x12.rank)
  bcast_S_S1048576x12 : S_.BroadcastsInDim S1048576x12 (![] : Fin 0 → Fin S1048576x12.rank)
  bcast_S8_S1x8_1 : S8.BroadcastsInDim S1x8 (![1] : Fin 1 → Fin S1x8.rank)
  bcast_S1x8_S1048576x8_0_1 : S1x8.BroadcastsInDim S1048576x8 (![0, 1] : Fin 2 → Fin S1048576x8.rank)
  bcast_S_S1048576x8 : S_.BroadcastsInDim S1048576x8 (![] : Fin 0 → Fin S1048576x8.rank)
  bcast_S6_S1x6_1 : S6.BroadcastsInDim S1x6 (![1] : Fin 1 → Fin S1x6.rank)
  bcast_S1x6_S1048576x6_0_1 : S1x6.BroadcastsInDim S1048576x6 (![0, 1] : Fin 2 → Fin S1048576x6.rank)
  bcast_S_S1048576x6 : S_.BroadcastsInDim S1048576x6 (![] : Fin 0 → Fin S1048576x6.rank)
  bcast_S2_S1x2_1 : S2.BroadcastsInDim S1x2 (![1] : Fin 1 → Fin S1x2.rank)
  bcast_S1x2_S1048576x2_0_1 : S1x2.BroadcastsInDim S1048576x2 (![0, 1] : Fin 2 → Fin S1048576x2.rank)
  dot_S1048576x64_S64x32_S1048576x32_1_0_0_1_n_n_wf : DotDims.WF S1048576x64 S64x32 S1048576x32 [1] [0] [0] [1] [] []
  dot_S1048576x32_S32x12_S1048576x12_1_0_0_1_n_n_wf : DotDims.WF S1048576x32 S32x12 S1048576x12 [1] [0] [0] [1] [] []
  dot_S1048576x12_S12x8_S1048576x8_1_0_0_1_n_n_wf : DotDims.WF S1048576x12 S12x8 S1048576x8 [1] [0] [0] [1] [] []
  dot_S1048576x8_S8x6_S1048576x6_1_0_0_1_n_n_wf : DotDims.WF S1048576x8 S8x6 S1048576x6 [1] [0] [0] [1] [] []
  dot_S1048576x6_S6x2_S1048576x2_1_0_0_1_n_n_wf : DotDims.WF S1048576x6 S6x2 S1048576x2 [1] [0] [0] [1] [] []

variable [Facts₀]

def dot_S1048576x64_S64x32_S1048576x32_1_0_0_1_n_n : DotDims S1048576x64 S64x32 S1048576x32 where
  lhsContracting := [1]
  rhsContracting := [0]
  lhsNonContracting := [0]
  rhsNonContracting := [1]
  lhsBatch := []
  rhsBatch := []
  wf := dot_S1048576x64_S64x32_S1048576x32_1_0_0_1_n_n_wf
def dot_S1048576x32_S32x12_S1048576x12_1_0_0_1_n_n : DotDims S1048576x32 S32x12 S1048576x12 where
  lhsContracting := [1]
  rhsContracting := [0]
  lhsNonContracting := [0]
  rhsNonContracting := [1]
  lhsBatch := []
  rhsBatch := []
  wf := dot_S1048576x32_S32x12_S1048576x12_1_0_0_1_n_n_wf
def dot_S1048576x12_S12x8_S1048576x8_1_0_0_1_n_n : DotDims S1048576x12 S12x8 S1048576x8 where
  lhsContracting := [1]
  rhsContracting := [0]
  lhsNonContracting := [0]
  rhsNonContracting := [1]
  lhsBatch := []
  rhsBatch := []
  wf := dot_S1048576x12_S12x8_S1048576x8_1_0_0_1_n_n_wf
def dot_S1048576x8_S8x6_S1048576x6_1_0_0_1_n_n : DotDims S1048576x8 S8x6 S1048576x6 where
  lhsContracting := [1]
  rhsContracting := [0]
  lhsNonContracting := [0]
  rhsNonContracting := [1]
  lhsBatch := []
  rhsBatch := []
  wf := dot_S1048576x8_S8x6_S1048576x6_1_0_0_1_n_n_wf
def dot_S1048576x6_S6x2_S1048576x2_1_0_0_1_n_n : DotDims S1048576x6 S6x2 S1048576x2 where
  lhsContracting := [1]
  rhsContracting := [0]
  lhsNonContracting := [0]
  rhsNonContracting := [1]
  lhsBatch := []
  rhsBatch := []
  wf := dot_S1048576x6_S6x2_S1048576x2_1_0_0_1_n_n_wf

class Facts : Prop extends Facts₀ where

variable [Facts]
-- ==== Proof.LibDense.lean ====
/-
  GENERAL LEMMAS: one dense layer, and the rectifier after it, read at an index on extended reals — in the two spellings a
  kernel and a host program give them. Nothing here mentions a program; the extents R (rows), K (contracted) and N
  (columns) are arbitrary.

  * affine, relu: a dense layer and the rectifier on ONE row, as plain functions Fin K → EReal ↦ Fin N → EReal.
  * ix2_of_val, ix1_of_val: an index with known coordinates is the index built from them.
  * contraction_rows: a contraction of axis 1 of an [R, K] array with axis 0 of a [K, N] array (no batch axes), read at
    (p, j), is the sum over k : Fin K of l (p, k) · r (k, j); the dimension record enters only through four coordinate
    facts about its operand indices (for a printed record: two by rfl-style unfolding, two by
    DotDims.lhsIdx_val_of_single / rhsIdx_val_of_single) and the rank and extent of its contraction shape (both rfl).
  * tile_affine: the kernel's spelling — tpu.matmul of the activations and weights, each rounded to bf16 on the way in
    (the identity on extended reals), into a zero accumulator, plus a [1, N] bias row cast to its own shape and broadcast
    down the R rows — at (p, j) is affine of row p.
  * host_affine: the host's spelling — dot_general plus an [N] bias vector broadcast to [1, N] and then to [R, N] — at
    (p, j) is affine of row p.
  * relu_tile, relu_host: a maximum against the zero word, splat from a scalar (kernel) or broadcast from a rank-0
    constant (host), at (p, j) is relu of row p.
  No law of extended-real arithmetic beyond reindexing a finite sum is used, so none of these needs finite inputs.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx
open scoped BigOperators

/-- One dense layer on a row: j ↦ (∑ k, h k · W (k, j)) + b j. -/
def affine {K N : ℕ} (W : (⟨2, ![K, N]⟩ : Shape).Idx → EReal) (b : Fin N → EReal) (h : Fin K → EReal) : Fin N → EReal :=
  fun j => (∑ k : Fin K, h k * W (ix2 k j)) + b j

/-- The rectifier on a row: each entry's maximum with the value of the zero word (kept as the word: both programs
    print the same word, so it is never evaluated). -/
def relu {N : ℕ} (v : Fin N → EReal) : Fin N → EReal :=
  fun j => max (v j) (Ideal.ofBits .f32 0x00000000#32)

/-- A rank-2 index with known coordinates is the index built from them. -/
theorem ix2_of_val {n0 n1 : ℕ} (f : (⟨2, ![n0, n1]⟩ : Shape).Idx) (a : Fin n0) (b : Fin n1)
    (h0 : (f 0).val = a.val) (h1 : (f 1).val = b.val) : f = ix2 a b :=
  funext fun d => Fin.ext (by
    match d with
    | ⟨0, _⟩ => exact h0
    | ⟨1, _⟩ => exact h1)

/-- A rank-1 index with a known coordinate is the index built from it. -/
theorem ix1_of_val {n : ℕ} (f : (⟨1, ![n]⟩ : Shape).Idx) (a : Fin n) (h0 : (f 0).val = a.val) : f = ix1 a :=
  funext fun d => Fin.ext (by
    match d with
    | ⟨0, _⟩ => exact h0)

/-- A contraction of axis 1 of an [R, K] array with axis 0 of a [K, N] array (no batch axes), read at (p, j), is the
    sum over k : Fin K of l (p, k) · r (k, j): the record's operand indices are named by hl0 ... hr1, and its one-axis
    contraction index is Fin K (contrEquiv1). -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (q : d.contr.Idx), (d.lhsIdx i q 0).val = (i 0).val)
    (hl1 : ∀ (i : (⟨2, ![R, N]⟩ : Shape).Idx) (q : d.contr.Idx), (d.lhsIdx i q 1).val = (q ⟨0, by omega⟩).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    (l : (⟨2, ![R, K]⟩ : Shape).Idx → EReal) (r : (⟨2, ![K, N]⟩ : Shape).Idx → EReal) (p : Fin R) (j : Fin N) :
    ∑ q : d.contr.Idx, l (d.lhsIdx (ix2 p j) q) * r (d.rhsIdx (ix2 p j) q) = ∑ k : Fin K, l (ix2 p k) * r (ix2 k j) := by
  rw [← Equiv.sum_comp (contrEquiv1 d K hrank hsize).symm]
  refine Finset.sum_congr rfl fun k _ => ?_
  have hk := contrEquiv1_symm_val d K hrank hsize k
  have el : d.lhsIdx (ix2 p j) ((contrEquiv1 d K hrank hsize).symm k) = ix2 p k :=
    ix2_of_val _ p k (hl0 _ _) ((hl1 _ _).trans hk)
  have er : d.rhsIdx (ix2 p j) ((contrEquiv1 d K hrank hsize).symm k) = ix2 k j :=
    ix2_of_val _ k j ((hr0 _ _).trans hk) (hr1 _ _)
  rw [el, er]

/-- ONE DENSE LAYER AS A KERNEL SPELLS IT, read at (p, j): the matrix unit's product of the activations and the weights
    (both rounded to bf16 on the way in: the identity here) into a zero accumulator, plus the bias, a [1, N] row cast to
    its own shape and broadcast down the R rows — is affine of the weights, the bias row and row p of the activations. -/
theorem tile_affine {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (q : d.contr.Idx), (d.lhsIdx i q 0).val = (i 0).val)
    (hl1 : ∀ (i : (⟨2, ![R, N]⟩ : Shape).Idx) (q : d.contr.Idx), (d.lhsIdx i q 1).val = (q ⟨0, by omega⟩).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    (h : FVec Ideal ⟨2, ![R, K]⟩ .f32) (W : FVec Ideal ⟨2, ![K, N]⟩ .f32) (b : FVec Ideal ⟨2, ![1, N]⟩ .f32)
    (hlt : FTy.bf16.bits < FTy.f32.bits)
    (hsc : (⟨2, ![1, N]⟩ : Shape).ShapeCasts ⟨2, ![1, N]⟩) (hbc : (⟨2, ![1, N]⟩ : Shape).Broadcasts ⟨2, ![R, N]⟩)
    (p : Fin R) (j : Fin N) :
    addf (matmul d none (truncf .bf16 h hlt) (truncf .bf16 W hlt) (constant (F := Ideal) ⟨2, ![R, N]⟩ .f32 0x00000000#32))
        (broadcastTo ⟨2, ![R, N]⟩ (shapeCast ⟨2, ![1, N]⟩ b hsc) hbc) (ix2 p j)
      = affine W (fun j => b (ix2 (0 : Fin 1) j)) (fun k => h (ix2 p k)) j := by
  rw [addf_apply, shapeCast_self, broadcastTo_1b_ab_apply]
  refine congrArg (· + b (ix2 (0 : Fin 1) j)) ?_
  refine (Ideal.matmul_constant_zero_apply d none (truncf .bf16 h hlt) (truncf .bf16 W hlt) (ix2 p j)).trans ?_
  exact contraction_rows d hrank hsize hl0 hl1 hr0 hr1 h W p j

/-- ONE DENSE LAYER AS THE HOST SPELLS IT, read at (p, j): dot_general of the activations and the weights plus the bias, an
    [N] vector broadcast to [1, N] and then down the R rows — is affine of the weights, the bias and row p. -/
theorem host_affine {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (q : d.contr.Idx), (d.lhsIdx i q 0).val = (i 0).val)
    (hl1 : ∀ (i : (⟨2, ![R, N]⟩ : Shape).Idx) (q : d.contr.Idx), (d.lhsIdx i q 1).val = (q ⟨0, by omega⟩).val)
    (hr0 : ∀ (i : (⟨2, ![R, N]⟩ : Shape).Idx) (q : d.contr.Idx), (d.rhsIdx i q 0).val = (q ⟨0, by omega⟩).val)
    (hr1 : ∀ (i : (⟨2, ![R, N]⟩ : Shape).Idx) (q : d.contr.Idx), (d.rhsIdx i q 1).val = (i 1).val)
    (h : FVec Ideal ⟨2, ![R, K]⟩ .f32) (W : FVec Ideal ⟨2, ![K, N]⟩ .f32) (b : FVec Ideal ⟨1, ![N]⟩ .f32)
    (hb1 : (⟨1, ![N]⟩ : Shape).BroadcastsInDim ⟨2, ![1, N]⟩ ![1])
    (hb2 : (⟨2, ![1, N]⟩ : Shape).BroadcastsInDim ⟨2, ![R, N]⟩ ![0, 1])
    (p : Fin R) (j : Fin N) :
    addf (Host.dotGeneral d none h W)
        (broadcastInDim ⟨2, ![R, N]⟩ ![0, 1] hb2 (broadcastInDim ⟨2, ![1, N]⟩ ![1] hb1 b)) (ix2 p j)
      = affine W (fun j => b (ix1 j)) (fun k => h (ix2 p k)) j := by
  rw [addf_apply]
  have e2 : broadcastInDim ⟨2, ![R, N]⟩ ![0, 1] hb2 (broadcastInDim ⟨2, ![1, N]⟩ ![1] hb1 b) (ix2 p j)
      = broadcastInDim ⟨2, ![1, N]⟩ ![1] hb1 b (ix2 (0 : Fin 1) j) :=
    broadcastInDim_apply _ hb2 _ (ix2 p j) (ix2 (0 : Fin 1) j) (fun a => match a with
      | ⟨0, _⟩ => by show (0 : ℕ) = if (1 : ℕ) = 1 then 0 else p.val; rw [if_pos rfl]
      | ⟨1, _⟩ => by
        show j.val = if N = 1 then 0 else j.val
        split
        · have := j.isLt; omega
        · rfl)
  have e1 : broadcastInDim ⟨2, ![1, N]⟩ ![1] hb1 b (ix2 (0 : Fin 1) j) = b (ix1 j) :=
    broadcastInDim_apply _ hb1 b (ix2 (0 : Fin 1) j) (ix1 j) (fun a => match a with
      | ⟨0, _⟩ => by
        show j.val = if N = 1 then 0 else j.val
        split
        · have := j.isLt; omega
        · rfl)
  rw [e2, e1]
  refine congrArg (· + b (ix1 j)) ?_
  refine (Ideal.dotGeneral_apply d none .single h W (ix2 p j)).trans ?_
  exact contraction_rows d hrank hsize hl0 hl1 hr0 hr1 h W p j

/-- The rectifier as a kernel spells it: a maximum against the splat of the zero word, read at (p, j), is the rectifier of
    row p at j. -/
theorem relu_tile {R N : ℕ} (a : FVec Ideal ⟨2, ![R, N]⟩ .f32) (p : Fin R) (j : Fin N) :
    maximumf a (broadcast ⟨2, ![R, N]⟩ (Scalar.ofBits (F := Ideal) .f32 0x00000000#32)) (ix2 p j)
      = relu (fun j => a (ix2 p j)) j := rfl

/-- The rectifier as the host spells it: a maximum against the zero constant, a scalar broadcast to the whole shape, read
    at (p, j), is the rectifier of row p at j. -/
theorem relu_host {R N : ℕ} (a : FVec Ideal ⟨2, ![R, N]⟩ .f32) (hb : (⟨0, ![]⟩ : Shape).BroadcastsInDim ⟨2, ![R, N]⟩ ![])
    (p : Fin R) (j : Fin N) :
    maximumf a (broadcastInDim ⟨2, ![R, N]⟩ ![] hb (constant (F := Ideal) ⟨0, ![]⟩ .f32 0x00000000#32)) (ix2 p j)
      = relu (fun j => a (ix2 p j)) j := by
  rw [maximumf_apply, broadcastInDim_apply _ hb _ (ix2 p j) ix0 (fun a => a.elim0)]
  rfl

end Cert.Dense

end
-- ==== Proof.MlpRow.lean ====
/-
  The mathematics both programs compute, one ROW at a time.

  A dense layer sends a row h : Fin K → EReal to j ↦ (∑ k, h k · W (k, j)) + b j (Cert.Dense.affine); between layers every
  entry is replaced by its maximum with the zero word's value (Cert.Dense.relu). The five-layer network is the composite
  mlpRow: affine, relu, affine, relu, affine, relu, affine, relu, affine — a function of ONE row of the input and of the
  weights, and of nothing else. That independence of rows is the whole reason a row-tiled evaluation (64 tiles of 16384
  rows, each in 4 chunks of 4096 rows) and a whole-array evaluation agree: both are mlpRow applied to row r, for every r;
  network is that array.
-/
import proofs.«159408_j7791070675691_2_alg».proof.Proof.LibDense

noncomputable section

namespace Cert.Mlp

open Cert.Dense Idealize.ShloMosaic Idealize.ShloMosaic.ValueIdx

/-- The network on one row of the input: widths 64 → 32 → 12 → 8 → 6 → 2, a rectifier after each layer but the last. -/
def mlpRow (W0 : (⟨2, ![64, 32]⟩ : Shape).Idx → EReal) (b0 : Fin 32 → EReal)
    (W1 : (⟨2, ![32, 12]⟩ : Shape).Idx → EReal) (b1 : Fin 12 → EReal)
    (W2 : (⟨2, ![12, 8]⟩ : Shape).Idx → EReal) (b2 : Fin 8 → EReal)
    (W3 : (⟨2, ![8, 6]⟩ : Shape).Idx → EReal) (b3 : Fin 6 → EReal)
    (W4 : (⟨2, ![6, 2]⟩ : Shape).Idx → EReal) (b4 : Fin 2 → EReal)
    (x : Fin 64 → EReal) : Fin 2 → EReal :=
  affine W4 b4 (relu (affine W3 b3 (relu (affine W2 b2 (relu (affine W1 b1 (relu (affine W0 b0 x))))))))

/-- THE NETWORK ON EVERY ROW: the 1048576 x 2 array whose row r is mlpRow of row r of the input X, with the weights
    W0 ... W4 and the biases b0 ... b4 (vectors) — the one function of the argument arrays at which both programs' results
    are stated. -/
def network (X : (⟨2, ![1048576, 64]⟩ : Shape).Idx → EReal)
    (W0 : (⟨2, ![64, 32]⟩ : Shape).Idx → EReal) (b0 : (⟨1, ![32]⟩ : Shape).Idx → EReal)
    (W1 : (⟨2, ![32, 12]⟩ : Shape).Idx → EReal) (b1 : (⟨1, ![12]⟩ : Shape).Idx → EReal)
    (W2 : (⟨2, ![12, 8]⟩ : Shape).Idx → EReal) (b2 : (⟨1, ![8]⟩ : Shape).Idx → EReal)
    (W3 : (⟨2, ![8, 6]⟩ : Shape).Idx → EReal) (b3 : (⟨1, ![6]⟩ : Shape).Idx → EReal)
    (W4 : (⟨2, ![6, 2]⟩ : Shape).Idx → EReal) (b4 : (⟨1, ![2]⟩ : Shape).Idx → EReal) :
    (⟨2, ![1048576, 2]⟩ : Shape).Idx → EReal :=
  fun i => mlpRow W0 (fun j => b0 (ix1 j)) W1 (fun j => b1 (ix1 j)) W2 (fun j => b2 (ix1 j)) W3 (fun j => b3 (ix1 j))
    W4 (fun j => b4 (ix1 j)) (fun k => X (ix2 (i 0) k)) (i 1)

end Cert.Mlp

end
-- ==== Proof.KernelChunk.lean ====
/-
  What the kernel's body computes on one CHUNK of 4096 rows: the value it stores (`Gen.k0_pay1`: five matrix-unit products
  into zero accumulators, each followed by the bias row broadcast down the rows and, but for the last, a maximum with zero),
  read at row p and column q of the chunk, is the network Cert.Mlp.mlpRow applied to row p of the chunk of the input
  the body loaded, with the weights as loaded and each bias its [1, N] row: chunk_rows. Layer by layer it is
  Cert.Dense.tile_affine (the product and the bias) and Cert.Dense.relu_tile (the maximum against the splat zero word), outermost
  first; the facts lhs0_l, lhs1_l, rhs0_l, rhs1_l name, coordinate by coordinate, the operand indices of the l-th product's
  dimension record, which is what tile_affine asks of it.
-/
import proofs.«159408_j7791070675691_2_alg».proof.Proof.Gen.KernelIdeal.Skeleton
import proofs.«159408_j7791070675691_2_alg».proof.Proof.MlpRow

noncomputable section

namespace Cert.KernelIdeal.Rows

open Cert.KernelIdeal Cert.KernelIdeal.Gen Cert.Dense Cert.Mlp Idealize.ShloMosaic Idealize.ShloMosaic.ValueIdx

/-! ## The five products' operand indices, coordinate by coordinate -/

theorem lhs0_0 (i : S4096x32.Idx) (q : dot_S4096x64_S64x32_S4096x32_1_0_0_1_n_n.contr.Idx) : (dot_S4096x64_S64x32_S4096x32_1_0_0_1_n_n.lhsIdx i q 0).val = (i 0).val := by
  unfold DotDims.lhsIdx
  rw [dif_neg (show ¬(0 : Fin S4096x64.rank) ∈ dot_S4096x64_S64x32_S4096x32_1_0_0_1_n_n.lhsBatch by decide), dif_pos (show (0 : Fin S4096x64.rank) ∈ dot_S4096x64_S64x32_S4096x32_1_0_0_1_n_n.lhsNonContracting by decide)]
  rfl
theorem lhs1_0 (i : S4096x32.Idx) (q : dot_S4096x64_S64x32_S4096x32_1_0_0_1_n_n.contr.Idx) : (dot_S4096x64_S64x32_S4096x32_1_0_0_1_n_n.lhsIdx i q 1).val = (q ⟨0, by decide⟩).val :=
  dot_S4096x64_S64x32_S4096x32_1_0_0_1_n_n.lhsIdx_val_of_single rfl i q
theorem rhs0_0 (i : S4096x32.Idx) (q : dot_S4096x64_S64x32_S4096x32_1_0_0_1_n_n.contr.Idx) : (dot_S4096x64_S64x32_S4096x32_1_0_0_1_n_n.rhsIdx i q 0).val = (q ⟨0, by decide⟩).val :=
  dot_S4096x64_S64x32_S4096x32_1_0_0_1_n_n.rhsIdx_val_of_single rfl i q
theorem rhs1_0 (i : S4096x32.Idx) (q : dot_S4096x64_S64x32_S4096x32_1_0_0_1_n_n.contr.Idx) : (dot_S4096x64_S64x32_S4096x32_1_0_0_1_n_n.rhsIdx i q 1).val = (i 1).val := by
  unfold DotDims.rhsIdx
  rw [dif_neg (show ¬(1 : Fin S64x32.rank) ∈ dot_S4096x64_S64x32_S4096x32_1_0_0_1_n_n.rhsBatch by decide), dif_pos (show (1 : Fin S64x32.rank) ∈ dot_S4096x64_S64x32_S4096x32_1_0_0_1_n_n.rhsNonContracting by decide)]
  rfl

theorem lhs0_1 (i : S4096x12.Idx) (q : dot_S4096x32_S32x12_S4096x12_1_0_0_1_n_n.contr.Idx) : (dot_S4096x32_S32x12_S4096x12_1_0_0_1_n_n.lhsIdx i q 0).val = (i 0).val := by
  unfold DotDims.lhsIdx
  rw [dif_neg (show ¬(0 : Fin S4096x32.rank) ∈ dot_S4096x32_S32x12_S4096x12_1_0_0_1_n_n.lhsBatch by decide), dif_pos (show (0 : Fin S4096x32.rank) ∈ dot_S4096x32_S32x12_S4096x12_1_0_0_1_n_n.lhsNonContracting by decide)]
  rfl
theorem lhs1_1 (i : S4096x12.Idx) (q : dot_S4096x32_S32x12_S4096x12_1_0_0_1_n_n.contr.Idx) : (dot_S4096x32_S32x12_S4096x12_1_0_0_1_n_n.lhsIdx i q 1).val = (q ⟨0, by decide⟩).val :=
  dot_S4096x32_S32x12_S4096x12_1_0_0_1_n_n.lhsIdx_val_of_single rfl i q
theorem rhs0_1 (i : S4096x12.Idx) (q : dot_S4096x32_S32x12_S4096x12_1_0_0_1_n_n.contr.Idx) : (dot_S4096x32_S32x12_S4096x12_1_0_0_1_n_n.rhsIdx i q 0).val = (q ⟨0, by decide⟩).val :=
  dot_S4096x32_S32x12_S4096x12_1_0_0_1_n_n.rhsIdx_val_of_single rfl i q
theorem rhs1_1 (i : S4096x12.Idx) (q : dot_S4096x32_S32x12_S4096x12_1_0_0_1_n_n.contr.Idx) : (dot_S4096x32_S32x12_S4096x12_1_0_0_1_n_n.rhsIdx i q 1).val = (i 1).val := by
  unfold DotDims.rhsIdx
  rw [dif_neg (show ¬(1 : Fin S32x12.rank) ∈ dot_S4096x32_S32x12_S4096x12_1_0_0_1_n_n.rhsBatch by decide), dif_pos (show (1 : Fin S32x12.rank) ∈ dot_S4096x32_S32x12_S4096x12_1_0_0_1_n_n.rhsNonContracting by decide)]
  rfl

theorem lhs0_2 (i : S4096x8.Idx) (q : dot_S4096x12_S12x8_S4096x8_1_0_0_1_n_n.contr.Idx) : (dot_S4096x12_S12x8_S4096x8_1_0_0_1_n_n.lhsIdx i q 0).val = (i 0).val := by
  unfold DotDims.lhsIdx
  rw [dif_neg (show ¬(0 : Fin S4096x12.rank) ∈ dot_S4096x12_S12x8_S4096x8_1_0_0_1_n_n.lhsBatch by decide), dif_pos (show (0 : Fin S4096x12.rank) ∈ dot_S4096x12_S12x8_S4096x8_1_0_0_1_n_n.lhsNonContracting by decide)]
  rfl
theorem lhs1_2 (i : S4096x8.Idx) (q : dot_S4096x12_S12x8_S4096x8_1_0_0_1_n_n.contr.Idx) : (dot_S4096x12_S12x8_S4096x8_1_0_0_1_n_n.lhsIdx i q 1).val = (q ⟨0, by decide⟩).val :=
  dot_S4096x12_S12x8_S4096x8_1_0_0_1_n_n.lhsIdx_val_of_single rfl i q
theorem rhs0_2 (i : S4096x8.Idx) (q : dot_S4096x12_S12x8_S4096x8_1_0_0_1_n_n.contr.Idx) : (dot_S4096x12_S12x8_S4096x8_1_0_0_1_n_n.rhsIdx i q 0).val = (q ⟨0, by decide⟩).val :=
  dot_S4096x12_S12x8_S4096x8_1_0_0_1_n_n.rhsIdx_val_of_single rfl i q
theorem rhs1_2 (i : S4096x8.Idx) (q : dot_S4096x12_S12x8_S4096x8_1_0_0_1_n_n.contr.Idx) : (dot_S4096x12_S12x8_S4096x8_1_0_0_1_n_n.rhsIdx i q 1).val = (i 1).val := by
  unfold DotDims.rhsIdx
  rw [dif_neg (show ¬(1 : Fin S12x8.rank) ∈ dot_S4096x12_S12x8_S4096x8_1_0_0_1_n_n.rhsBatch by decide), dif_pos (show (1 : Fin S12x8.rank) ∈ dot_S4096x12_S12x8_S4096x8_1_0_0_1_n_n.rhsNonContracting by decide)]
  rfl

theorem lhs0_3 (i : S4096x6.Idx) (q : dot_S4096x8_S8x6_S4096x6_1_0_0_1_n_n.contr.Idx) : (dot_S4096x8_S8x6_S4096x6_1_0_0_1_n_n.lhsIdx i q 0).val = (i 0).val := by
  unfold DotDims.lhsIdx
  rw [dif_neg (show ¬(0 : Fin S4096x8.rank) ∈ dot_S4096x8_S8x6_S4096x6_1_0_0_1_n_n.lhsBatch by decide), dif_pos (show (0 : Fin S4096x8.rank) ∈ dot_S4096x8_S8x6_S4096x6_1_0_0_1_n_n.lhsNonContracting by decide)]
  rfl
theorem lhs1_3 (i : S4096x6.Idx) (q : dot_S4096x8_S8x6_S4096x6_1_0_0_1_n_n.contr.Idx) : (dot_S4096x8_S8x6_S4096x6_1_0_0_1_n_n.lhsIdx i q 1).val = (q ⟨0, by decide⟩).val :=
  dot_S4096x8_S8x6_S4096x6_1_0_0_1_n_n.lhsIdx_val_of_single rfl i q
theorem rhs0_3 (i : S4096x6.Idx) (q : dot_S4096x8_S8x6_S4096x6_1_0_0_1_n_n.contr.Idx) : (dot_S4096x8_S8x6_S4096x6_1_0_0_1_n_n.rhsIdx i q 0).val = (q ⟨0, by decide⟩).val :=
  dot_S4096x8_S8x6_S4096x6_1_0_0_1_n_n.rhsIdx_val_of_single rfl i q
theorem rhs1_3 (i : S4096x6.Idx) (q : dot_S4096x8_S8x6_S4096x6_1_0_0_1_n_n.contr.Idx) : (dot_S4096x8_S8x6_S4096x6_1_0_0_1_n_n.rhsIdx i q 1).val = (i 1).val := by
  unfold DotDims.rhsIdx
  rw [dif_neg (show ¬(1 : Fin S8x6.rank) ∈ dot_S4096x8_S8x6_S4096x6_1_0_0_1_n_n.rhsBatch by decide), dif_pos (show (1 : Fin S8x6.rank) ∈ dot_S4096x8_S8x6_S4096x6_1_0_0_1_n_n.rhsNonContracting by decide)]
  rfl

theorem lhs0_4 (i : S4096x2.Idx) (q : dot_S4096x6_S6x2_S4096x2_1_0_0_1_n_n.contr.Idx) : (dot_S4096x6_S6x2_S4096x2_1_0_0_1_n_n.lhsIdx i q 0).val = (i 0).val := by
  unfold DotDims.lhsIdx
  rw [dif_neg (show ¬(0 : Fin S4096x6.rank) ∈ dot_S4096x6_S6x2_S4096x2_1_0_0_1_n_n.lhsBatch by decide), dif_pos (show (0 : Fin S4096x6.rank) ∈ dot_S4096x6_S6x2_S4096x2_1_0_0_1_n_n.lhsNonContracting by decide)]
  rfl
theorem lhs1_4 (i : S4096x2.Idx) (q : dot_S4096x6_S6x2_S4096x2_1_0_0_1_n_n.contr.Idx) : (dot_S4096x6_S6x2_S4096x2_1_0_0_1_n_n.lhsIdx i q 1).val = (q ⟨0, by decide⟩).val :=
  dot_S4096x6_S6x2_S4096x2_1_0_0_1_n_n.lhsIdx_val_of_single rfl i q
theorem rhs0_4 (i : S4096x2.Idx) (q : dot_S4096x6_S6x2_S4096x2_1_0_0_1_n_n.contr.Idx) : (dot_S4096x6_S6x2_S4096x2_1_0_0_1_n_n.rhsIdx i q 0).val = (q ⟨0, by decide⟩).val :=
  dot_S4096x6_S6x2_S4096x2_1_0_0_1_n_n.rhsIdx_val_of_single rfl i q
theorem rhs1_4 (i : S4096x2.Idx) (q : dot_S4096x6_S6x2_S4096x2_1_0_0_1_n_n.contr.Idx) : (dot_S4096x6_S6x2_S4096x2_1_0_0_1_n_n.rhsIdx i q 1).val = (i 1).val := by
  unfold DotDims.rhsIdx
  rw [dif_neg (show ¬(1 : Fin S6x2.rank) ∈ dot_S4096x6_S6x2_S4096x2_1_0_0_1_n_n.rhsBatch by decide), dif_pos (show (1 : Fin S6x2.rank) ∈ dot_S4096x6_S6x2_S4096x2_1_0_0_1_n_n.rhsNonContracting by decide)]
  rfl

/-! ## The chunk's stored value, row by row -/

/-- THE CHUNK: the stored value at (p, q) is the network on row p of the loaded chunk v24. -/
theorem chunk_rows (v0 : Vec Ideal S64x32 .f32) (v2 : Vec Ideal S32x12 .f32) (v4 : Vec Ideal S12x8 .f32) (v6 : Vec Ideal S8x6 .f32)
    (v8 : Vec Ideal S6x2 .f32) (v10 : Vec Ideal S1x32 .f32) (v12 : Vec Ideal S1x12 .f32) (v14 : Vec Ideal S1x8 .f32)
    (v16 : Vec Ideal S1x6 .f32) (v18 : Vec Ideal S1x2 .f32) (v24 : Vec Ideal S4096x64 .f32) (p : Fin 4096) (q : Fin 2) :
    k0_pay1 (F := Ideal) v0 v2 v4 v6 v8 v10 v12 v14 v16 v18 v24 (ix2 p q)
      = mlpRow v0 (fun j => v10 (ix2 (0 : Fin 1) j)) v2 (fun j => v12 (ix2 (0 : Fin 1) j)) v4 (fun j => v14 (ix2 (0 : Fin 1) j))
          v6 (fun j => v16 (ix2 (0 : Fin 1) j)) v8 (fun j => v18 (ix2 (0 : Fin 1) j)) (fun k => v24 (ix2 p k)) q := by
  unfold k0_pay1 mlpRow
  refine (tile_affine dot_S4096x6_S6x2_S4096x2_1_0_0_1_n_n rfl rfl lhs0_4 lhs1_4 rhs0_4 rhs1_4 _ v8 v18 _ _ _ p q).trans ?_
  refine congrArg (fun h => affine v8 _ h q) (funext fun k4 => ?_)
  refine (relu_tile _ p k4).trans ?_
  refine congrArg (fun h => relu h k4) (funext fun j3 => ?_)
  refine (tile_affine dot_S4096x8_S8x6_S4096x6_1_0_0_1_n_n rfl rfl lhs0_3 lhs1_3 rhs0_3 rhs1_3 _ v6 v16 _ _ _ p j3).trans ?_
  refine congrArg (fun h => affine v6 _ h j3) (funext fun k3 => ?_)
  refine (relu_tile _ p k3).trans ?_
  refine congrArg (fun h => relu h k3) (funext fun j2 => ?_)
  refine (tile_affine dot_S4096x12_S12x8_S4096x8_1_0_0_1_n_n rfl rfl lhs0_2 lhs1_2 rhs0_2 rhs1_2 _ v4 v14 _ _ _ p j2).trans ?_
  refine congrArg (fun h => affine v4 _ h j2) (funext fun k2 => ?_)
  refine (relu_tile _ p k2).trans ?_
  refine congrArg (fun h => relu h k2) (funext fun j1 => ?_)
  refine (tile_affine dot_S4096x32_S32x12_S4096x12_1_0_0_1_n_n rfl rfl lhs0_1 lhs1_1 rhs0_1 rhs1_1 _ v2 v12 _ _ _ p j1).trans ?_
  refine congrArg (fun h => affine v2 _ h j1) (funext fun k1 => ?_)
  refine (relu_tile _ p k1).trans ?_
  refine congrArg (fun h => relu h k1) (funext fun j0 => ?_)
  exact tile_affine dot_S4096x64_S64x32_S4096x32_1_0_0_1_n_n rfl rfl lhs0_0 lhs1_0 rhs0_0 rhs1_0 _ v0 v10 _ _ _ p j0

end Cert.KernelIdeal.Rows

end
-- ==== Proof.KernelTile.lean ====
/-
  What ONE GRID POINT leaves in the output's staging buffer: the tile function tileOut of the point's input blocks.

  At a grid point the body runs four trips of a counted loop; trip k loads rows 4096 k, ..., 4096 k + 4095 of the point's
  16384-row block of the input, applies the chunk computation (Rows.chunk_rows: the network, row by row) and stores the
  4096 x 2 result at the same rows of the output's 16384 x 2 staging buffer. So after the four trips the buffer holds, at
  row r and column q, the network applied to row r of the input block: tileOut. The steps:
  * trip_piece: the one piece a trip writes is the chunk computation of the loaded rows, stored at the trip's row offset
    (the trip's definition opened once, here, and cited from then on);
  * chunk_piece: that piece is the restriction of tileOut to its rectangle, since the load's and the store's rectangles
    begin at the same row and at column zero;
  * pieces_restrict: by induction on the number of trips done, every piece written so far restricts tileOut;
  * out_tile: the pieces tile the buffer (the generated cover), so reading them back gives tileOut everywhere
    (View.canon_apply_of_pieces: pieces that all restrict one function read back as that function).
  The weights and bias rows are loaded once before the loop, through the whole-buffer rectangle at offset zero: a load of
  a whole buffer reads its contents.
-/
import proofs.«159408_j7791070675691_2_alg».proof.Proof.Gen.KernelIdeal.Value
import proofs.«159408_j7791070675691_2_alg».proof.Proof.KernelChunk
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Tile

open Cert.KernelIdeal Cert.KernelIdeal.Gen Cert.KernelIdeal.Value Cert.KernelIdeal.Rows Cert.Dense Cert.Mlp Idealize.ShloMosaic.ValueIdx

/-- The zero offsets of a whole-buffer rectangle, as the printed program spells them. -/
theorem hz : (![0, 0] : Fin 2 → Nat) = fun _ => 0 := funext fun a => by fin_cases a <;> rfl

/-- THE TILE FUNCTION: from a 16384-row block x0 of the input, the weights x1, x3, x5, x7, x9 and the bias rows
    x2, x4, x6, x8, x10, the 16384 x 2 array whose row r is the network applied to row r of x0. -/
def tileOut (x0 : Vec Ideal S16384x64 .f32) (x1 : Vec Ideal S64x32 .f32) (x2 : Vec Ideal S1x32 .f32) (x3 : Vec Ideal S32x12 .f32)
    (x4 : Vec Ideal S1x12 .f32) (x5 : Vec Ideal S12x8 .f32) (x6 : Vec Ideal S1x8 .f32) (x7 : Vec Ideal S8x6 .f32)
    (x8 : Vec Ideal S1x6 .f32) (x9 : Vec Ideal S6x2 .f32) (x10 : Vec Ideal S1x2 .f32) : Vec Ideal S16384x2 .f32 :=
  fun y => mlpRow x1 (fun j => x2 (ix2 (0 : Fin 1) j)) x3 (fun j => x4 (ix2 (0 : Fin 1) j)) x5 (fun j => x6 (ix2 (0 : Fin 1) j))
    x7 (fun j => x8 (ix2 (0 : Fin 1) j)) x9 (fun j => x10 (ix2 (0 : Fin 1) j)) (fun k => x0 (ix2 (y 0) k)) (y 1)

/-- ONE TRIP'S PIECE: trip k writes, at its row offset in the output's buffer, the chunk computation of the rows it
    loaded at the same offset of the input's buffer. -/
theorem trip_piece (𝒱 : Variants) (c : Dev nD) (bd : Option 𝒱.V) (i : grid0.Coords) (arg1 : Memref sig .tc .vmem S16384x64 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S32x12 .f32) (harg4 : arg4.IsWhole) (arg5 : Memref sig .tc .vmem S1x12 .f32) (harg5 : arg5.IsWhole) (arg6 : Memref sig .tc .vmem S12x8 .f32) (harg6 : arg6.IsWhole) (arg7 : Memref sig .tc .vmem S1x8 .f32) (harg7 : arg7.IsWhole) (arg8 : Memref sig .tc .vmem S8x6 .f32) (harg8 : arg8.IsWhole) (arg9 : Memref sig .tc .vmem S1x6 .f32) (harg9 : arg9.IsWhole) (arg10 : Memref sig .tc .vmem S6x2 .f32) (harg10 : arg10.IsWhole) (arg11 : Memref sig .tc .vmem S1x2 .f32) (harg11 : arg11.IsWhole) (arg12 : Memref sig .tc .vmem S16384x2 .f32) (harg12 : arg12.IsWhole)
    (v0 : Vec Ideal S64x32 .f32) (v2 : Vec Ideal S32x12 .f32) (v4 : Vec Ideal S12x8 .f32) (v6 : Vec Ideal S8x6 .f32) (v8 : Vec Ideal S6x2 .f32) (v10 : Vec Ideal S1x32 .f32) (v12 : Vec Ideal S1x12 .f32) (v14 : Vec Ideal S1x8 .f32) (v16 : Vec Ideal S1x6 .f32) (v18 : Vec Ideal S1x2 .f32)
    (X_arg1 : BufTy.Contents (Elt Ideal) arg1.view.ty) (k : Fin k0_t1_loop.trips) :
    tripL_k0_t1 (F := Ideal) 𝒱 c bd i arg1 harg1 arg2 harg2 arg3 harg3 arg4 harg4 arg5 harg5 arg6 harg6 arg7 harg7 arg8 harg8 arg9 harg9 arg10 harg10 arg11 harg11 arg12 harg12 v0 v2 v4 v6 v8 v10 v12 v14 v16 v18 X_arg1 k
      = [⟨Rect.unit (s := S16384x2) (k0_off2 k) S4096x2.size (k0_off2_inb k),
          k0_pay1 v0 v2 v4 v6 v8 v10 v12 v14 v16 v18 (View.readAt (Elt Ideal) arg1.view (Rect.unit (s := S16384x64) (k0_off1 k) S4096x64.size (k0_off1_inb k)).toLoadRect X_arg1)⟩] := by
  unfold tripL_k0_t1 trip_k0_t1
  rfl

/-- A TRIP'S PIECE RESTRICTS THE TILE FUNCTION: at (p, q) of the chunk it is tileOut at the element of the buffer the
    store's rectangle places (p, q) at — the two rectangles begin at the same row, and at column zero. -/
theorem chunk_piece (arg1 : Memref sig .tc .vmem S16384x64 .f32) (harg1 : arg1.IsWhole)
    (x0 : Vec Ideal S16384x64 .f32) (x1 : Vec Ideal S64x32 .f32) (x2 : Vec Ideal S1x32 .f32) (x3 : Vec Ideal S32x12 .f32)
    (x4 : Vec Ideal S1x12 .f32) (x5 : Vec Ideal S12x8 .f32) (x6 : Vec Ideal S1x8 .f32) (x7 : Vec Ideal S8x6 .f32)
    (x8 : Vec Ideal S1x6 .f32) (x9 : Vec Ideal S6x2 .f32) (x10 : Vec Ideal S1x2 .f32) (k : Fin k0_t1_loop.trips)
    (p : Fin 4096) (q : Fin 2) :
    k0_pay1 (F := Ideal) x1 x3 x5 x7 x9 x2 x4 x6 x8 x10
        (View.readAt (Elt Ideal) arg1.view (Rect.unit (s := S16384x64) (k0_off1 k) S4096x64.size (k0_off1_inb k)).toLoadRect (harg1.unread x0)) (ix2 p q)
      = tileOut x0 x1 x2 x3 x4 x5 x6 x7 x8 x9 x10 ((Rect.unit (s := S16384x2) (k0_off2 k) S4096x2.size (k0_off2_inb k)).emb (ix2 p q)) := by
  refine (chunk_rows _ _ _ _ _ _ _ _ _ _ _ p q).trans ?_
  unfold tileOut
  rw [View.readAt_eq_ld, harg1.read_unread]
  have e1 : (Rect.unit (s := S16384x2) (k0_off2 k) S4096x2.size (k0_off2_inb k)).emb (ix2 p q) 1 = q :=
    Fin.ext (by show 0 + 1 * q.val = q.val; omega)
  have e0 : (fun k' : Fin 64 => View.ld x0 (Rect.unit (s := S16384x64) (k0_off1 k) S4096x64.size (k0_off1_inb k)) (ix2 p k'))
      = fun k' => x0 (ix2 ((Rect.unit (s := S16384x2) (k0_off2 k) S4096x2.size (k0_off2_inb k)).emb (ix2 p q) 0) k') :=
    funext fun k' => congrArg x0 (ix2_of_val _ _ _ rfl (by show 0 + 1 * k'.val = k'.val; omega))
  rw [e0, e1]

/-- EVERY PIECE WRITTEN BY THE FIRST n TRIPS RESTRICTS THE TILE FUNCTION, by induction on n: trip n adds its one piece in
    front of the earlier ones. -/
theorem pieces_restrict (c : Dev nD) (i : grid0.Coords) (arg1 : Memref sig .tc .vmem S16384x64 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S32x12 .f32) (harg4 : arg4.IsWhole) (arg5 : Memref sig .tc .vmem S1x12 .f32) (harg5 : arg5.IsWhole) (arg6 : Memref sig .tc .vmem S12x8 .f32) (harg6 : arg6.IsWhole) (arg7 : Memref sig .tc .vmem S1x8 .f32) (harg7 : arg7.IsWhole) (arg8 : Memref sig .tc .vmem S8x6 .f32) (harg8 : arg8.IsWhole) (arg9 : Memref sig .tc .vmem S1x6 .f32) (harg9 : arg9.IsWhole) (arg10 : Memref sig .tc .vmem S6x2 .f32) (harg10 : arg10.IsWhole) (arg11 : Memref sig .tc .vmem S1x2 .f32) (harg11 : arg11.IsWhole) (arg12 : Memref sig .tc .vmem S16384x2 .f32) (harg12 : arg12.IsWhole)
    (x0 : Vec Ideal S16384x64 .f32) (x1 : Vec Ideal S64x32 .f32) (x2 : Vec Ideal S1x32 .f32) (x3 : Vec Ideal S32x12 .f32)
    (x4 : Vec Ideal S1x12 .f32) (x5 : Vec Ideal S12x8 .f32) (x6 : Vec Ideal S1x8 .f32) (x7 : Vec Ideal S8x6 .f32)
    (x8 : Vec Ideal S1x6 .f32) (x9 : Vec Ideal S6x2 .f32) (x10 : Vec Ideal S1x2 .f32) :
    ∀ n : ℕ, n ≤ k0_t1_loop.trips →
      ∀ pc ∈ pb_k0_t1 (F := Ideal) Variants.none c none i arg1 harg1 arg2 harg2 arg3 harg3 arg4 harg4 arg5 harg5 arg6 harg6 arg7 harg7 arg8 harg8 arg9 harg9 arg10 harg10 arg11 harg11 arg12 harg12 x1 x3 x5 x7 x9 x2 x4 x6 x8 x10 (harg1.unread x0) n,
        ∀ x : pc.1.shape.Idx, pc.2 x = tileOut x0 x1 x2 x3 x4 x5 x6 x7 x8 x9 x10 (pc.1.emb x)
  | 0, _ => fun pc hpc => absurd hpc List.not_mem_nil
  | n + 1, hn => fun pc hpc x => by
    have hs := pb_k0_t1_succ (F := Ideal) Variants.none c none i arg1 harg1 arg2 harg2 arg3 harg3 arg4 harg4 arg5 harg5 arg6 harg6 arg7 harg7 arg8 harg8 arg9 harg9 arg10 harg10 arg11 harg11 arg12 harg12 x1 x3 x5 x7 x9 x2 x4 x6 x8 x10 (harg1.unread x0) ⟨n, hn⟩
    rw [show (⟨n, hn⟩ : Fin k0_t1_loop.trips).val + 1 = n + 1 from rfl, trip_piece] at hs
    rw [hs] at hpc
    rcases List.mem_append.mp hpc with h | h
    · obtain rfl := List.mem_singleton.mp h
      obtain ⟨p, q, rfl⟩ : ∃ (p : Fin 4096) (q : Fin 2), x = ix2 p q := ⟨x 0, x 1, eq_ix2 x⟩
      exact chunk_piece arg1 harg1 x0 x1 x2 x3 x4 x5 x6 x7 x8 x9 x10 ⟨n, hn⟩ p q
    · exact pieces_restrict c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 n (Nat.le_of_succ_le hn) pc h x

/-- AFTER THE BODY the output's staging buffer holds the tile function of the point's input blocks: the run's pieces (the
    four trips') cover the buffer and each restricts tileOut. -/
theorem out_tile (c : Dev nD) (i : grid0.Coords) (arg1 : Memref sig .tc .vmem S16384x64 .f32) (harg1 : arg1.IsWhole) (arg2 : Memref sig .tc .vmem S64x32 .f32) (harg2 : arg2.IsWhole) (arg3 : Memref sig .tc .vmem S1x32 .f32) (harg3 : arg3.IsWhole) (arg4 : Memref sig .tc .vmem S32x12 .f32) (harg4 : arg4.IsWhole) (arg5 : Memref sig .tc .vmem S1x12 .f32) (harg5 : arg5.IsWhole) (arg6 : Memref sig .tc .vmem S12x8 .f32) (harg6 : arg6.IsWhole) (arg7 : Memref sig .tc .vmem S1x8 .f32) (harg7 : arg7.IsWhole) (arg8 : Memref sig .tc .vmem S8x6 .f32) (harg8 : arg8.IsWhole) (arg9 : Memref sig .tc .vmem S1x6 .f32) (harg9 : arg9.IsWhole) (arg10 : Memref sig .tc .vmem S6x2 .f32) (harg10 : arg10.IsWhole) (arg11 : Memref sig .tc .vmem S1x2 .f32) (harg11 : arg11.IsWhole) (arg12 : Memref sig .tc .vmem S16384x2 .f32) (harg12 : arg12.IsWhole)
    (x0 : Vec Ideal S16384x64 .f32) (x1 : Vec Ideal S64x32 .f32) (x2 : Vec Ideal S1x32 .f32) (x3 : Vec Ideal S32x12 .f32)
    (x4 : Vec Ideal S1x12 .f32) (x5 : Vec Ideal S12x8 .f32) (x6 : Vec Ideal S1x8 .f32) (x7 : Vec Ideal S8x6 .f32)
    (x8 : Vec Ideal S1x6 .f32) (x9 : Vec Ideal S6x2 .f32) (x10 : Vec Ideal S1x2 .f32) :
    out0_A_11 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10
      = tileOut x0 x1 x2 x3 x4 x5 x6 x7 x8 x9 x10 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10)]
  funext y
  refine View.canon_apply_of_pieces (tileOut x0 x1 x2 x3 x4 x5 x6 x7 x8 x9 x10) _ ?_ y
    (cover0_A_11 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 y)
  unfold kernelRun0_A
  dsimp only
  simp only [View.readAt_eq_ld, harg2.read_unread, harg3.read_unread, harg4.read_unread, harg5.read_unread, harg6.read_unread,
    harg7.read_unread, harg8.read_unread, harg9.read_unread, harg10.read_unread, harg11.read_unread,
    View.ld_unit_zero (S := S64x32) hz, View.ld_unit_zero (S := S1x32) hz, View.ld_unit_zero (S := S32x12) hz,
    View.ld_unit_zero (S := S1x12) hz, View.ld_unit_zero (S := S12x8) hz, View.ld_unit_zero (S := S1x8) hz,
    View.ld_unit_zero (S := S8x6) hz, View.ld_unit_zero (S := S1x6) hz, View.ld_unit_zero (S := S6x2) hz,
    View.ld_unit_zero (S := S1x2) hz]
  exact pieces_restrict c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 x10 _ (Nat.le_refl _)

end Cert.KernelIdeal.Tile

end
-- ==== Proof.KernelArray.lean ====
/-
  From tiles to the whole array: after the kernel's run its result array is the network applied to every row of the
  input (Cert.Mlp.network of the argument arrays), the arguments unchanged — run.

  * idx_facts: the windows' index maps, decided once over the 64 grid points — the input's and the output's windows are
    at block t along the rows and block 0 along the columns; every weight and bias window is at block (0, 0).
  * blkW0 ... blkW4, blkB0 ... blkB4: so each weight window's block is its whole argument array, and each bias window's one
    row is the bias vector (the host reshapes the [N] vector to [1, N] before the call: read at (0, j) it is the vector at j).
  * flushed_eq: what point t writes back, the tile function of its blocks (Tile.out_tile), is block t of the network's
    array: row r of point t's input block is row 16384 t + r of the input, and the output block sits at the same rows.
  * mem_blk, cover: an index (r, q) of the result lies in the block of point r / 16384.
  * final, run: every index is covered by a written-back block, so the array is the network's (Dat.arrAt_eq_of_cover).
-/
import proofs.«159408_j7791070675691_2_alg».proof.Proof.KernelTile

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Value Cert.KernelIdeal.Tile Cert.Dense Cert.Mlp Idealize.ShloMosaic.ValueIdx

variable (m : (ℓ : Loc nD τ sig) → Buf (Elt Ideal) ℓ) (ρ : Dev nD → PrngReg)

/-- THE RESULT: the network on every row of the input argument, with the weight and bias arguments. -/
def result (c : Dev nD) : Buf (Elt Ideal) ((c : Thread nD τ).loc main_v5) :=
  network (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

/-- The printed index maps, decided over the grid: windows 0 (the input) and 11 (the output) are at block (t, 0); windows
    1 ... 10 (weights and biases) at block (0, 0). -/
theorem idx_facts : ∀ t : Fin cfg0.N,
    win0_0.index t (0 : Fin 2) = t.val ∧ win0_0.index t (1 : Fin 2) = 0
    ∧ win0_11.index t (0 : Fin 2) = t.val ∧ win0_11.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0 :=
  (by decide +kernel : ∀ t : Fin grid0.N, _)

/-! ## The weight windows: each block is the whole argument -/

theorem blkW0 (c : Dev nD) (t : Fin cfg0.N) : (iblk m c 1 t : Vec Ideal S64x32 .f32) = m ((c : Thread nD τ).loc main_arg1) := by
  obtain ⟨a00, a01, o0, o1, w10, w11, w20, w21, w30, w31, w40, w41, w50, w51, w60, w61, w70, w71, w80, w81, w90, w91, wa0, wa1⟩ := idx_facts t
  refine Eq.trans (funext fun y => ?_) (V_main_arg1 m c)
  show V m c main_arg1 (((cfg0.win 1).blk t).view.emb y) = V m c main_arg1 y
  refine congrArg _ (funext fun a => Fin.ext ?_)
  match a with
  | ⟨0, _⟩ => show win0_1.index t (0 : Fin 2) * 64 + 1 * (y 0).val = (y 0).val; omega
  | ⟨1, _⟩ => show win0_1.index t (1 : Fin 2) * 32 + 1 * (y 1).val = (y 1).val; omega

theorem blkW1 (c : Dev nD) (t : Fin cfg0.N) : (iblk m c 3 t : Vec Ideal S32x12 .f32) = m ((c : Thread nD τ).loc main_arg3) := by
  obtain ⟨a00, a01, o0, o1, w10, w11, w20, w21, w30, w31, w40, w41, w50, w51, w60, w61, w70, w71, w80, w81, w90, w91, wa0, wa1⟩ := idx_facts t
  refine Eq.trans (funext fun y => ?_) (V_main_arg3 m c)
  show V m c main_arg3 (((cfg0.win 3).blk t).view.emb y) = V m c main_arg3 y
  refine congrArg _ (funext fun a => Fin.ext ?_)
  match a with
  | ⟨0, _⟩ => show win0_3.index t (0 : Fin 2) * 32 + 1 * (y 0).val = (y 0).val; omega
  | ⟨1, _⟩ => show win0_3.index t (1 : Fin 2) * 12 + 1 * (y 1).val = (y 1).val; omega

theorem blkW2 (c : Dev nD) (t : Fin cfg0.N) : (iblk m c 5 t : Vec Ideal S12x8 .f32) = m ((c : Thread nD τ).loc main_arg5) := by
  obtain ⟨a00, a01, o0, o1, w10, w11, w20, w21, w30, w31, w40, w41, w50, w51, w60, w61, w70, w71, w80, w81, w90, w91, wa0, wa1⟩ := idx_facts t
  refine Eq.trans (funext fun y => ?_) (V_main_arg5 m c)
  show V m c main_arg5 (((cfg0.win 5).blk t).view.emb y) = V m c main_arg5 y
  refine congrArg _ (funext fun a => Fin.ext ?_)
  match a with
  | ⟨0, _⟩ => show win0_5.index t (0 : Fin 2) * 12 + 1 * (y 0).val = (y 0).val; omega
  | ⟨1, _⟩ => show win0_5.index t (1 : Fin 2) * 8 + 1 * (y 1).val = (y 1).val; omega

theorem blkW3 (c : Dev nD) (t : Fin cfg0.N) : (iblk m c 7 t : Vec Ideal S8x6 .f32) = m ((c : Thread nD τ).loc main_arg7) := by
  obtain ⟨a00, a01, o0, o1, w10, w11, w20, w21, w30, w31, w40, w41, w50, w51, w60, w61, w70, w71, w80, w81, w90, w91, wa0, wa1⟩ := idx_facts t
  refine Eq.trans (funext fun y => ?_) (V_main_arg7 m c)
  show V m c main_arg7 (((cfg0.win 7).blk t).view.emb y) = V m c main_arg7 y
  refine congrArg _ (funext fun a => Fin.ext ?_)
  match a with
  | ⟨0, _⟩ => show win0_7.index t (0 : Fin 2) * 8 + 1 * (y 0).val = (y 0).val; omega
  | ⟨1, _⟩ => show win0_7.index t (1 : Fin 2) * 6 + 1 * (y 1).val = (y 1).val; omega

theorem blkW4 (c : Dev nD) (t : Fin cfg0.N) : (iblk m c 9 t : Vec Ideal S6x2 .f32) = m ((c : Thread nD τ).loc main_arg9) := by
  obtain ⟨a00, a01, o0, o1, w10, w11, w20, w21, w30, w31, w40, w41, w50, w51, w60, w61, w70, w71, w80, w81, w90, w91, wa0, wa1⟩ := idx_facts t
  refine Eq.trans (funext fun y => ?_) (V_main_arg9 m c)
  show V m c main_arg9 (((cfg0.win 9).blk t).view.emb y) = V m c main_arg9 y
  refine congrArg _ (funext fun a => Fin.ext ?_)
  match a with
  | ⟨0, _⟩ => show win0_9.index t (0 : Fin 2) * 6 + 1 * (y 0).val = (y 0).val; omega
  | ⟨1, _⟩ => show win0_9.index t (1 : Fin 2) * 2 + 1 * (y 1).val = (y 1).val; omega

/-! ## The bias windows: the one row of each block is the bias vector -/

theorem blkB0 (c : Dev nD) (t : Fin cfg0.N) :
    (fun j : Fin 32 => (iblk m c 2 t : Vec Ideal S1x32 .f32) (ix2 (0 : Fin 1) j)) = fun j => m ((c : Thread nD τ).loc main_arg2) (ix1 j) := by
  obtain ⟨a00, a01, o0, o1, w10, w11, w20, w21, w30, w31, w40, w41, w50, w51, w60, w61, w70, w71, w80, w81, w90, w91, wa0, wa1⟩ := idx_facts t
  have hv : (V m c main_v0 : S1x32.Idx → EReal) = shapeCast S1x32 (m ((c : Thread nD τ).loc main_arg2)) shapeCasts_S32_S1x32 := by
    dsimp only [Gen.V, Gen.hostOps0]; after_results; rfl
  funext j
  show V m c main_v0 (((cfg0.win 2).blk t).view.emb (ix2 (0 : Fin 1) j)) = _
  rw [hv]
  have he : ((cfg0.win 2).blk t).view.emb (ix2 (0 : Fin 1) j) = ix2 (0 : Fin 1) j :=
    ix2_of_val _ _ _ (by show win0_2.index t (0 : Fin 2) * 1 + 1 * 0 = 0; omega)
      (by show win0_2.index t (1 : Fin 2) * 32 + 1 * j.val = j.val; omega)
  rw [he]
  exact shapeCast_a_1a_apply _ _ (0 : Fin 1) j

theorem blkB1 (c : Dev nD) (t : Fin cfg0.N) :
    (fun j : Fin 12 => (iblk m c 4 t : Vec Ideal S1x12 .f32) (ix2 (0 : Fin 1) j)) = fun j => m ((c : Thread nD τ).loc main_arg4) (ix1 j) := by
  obtain ⟨a00, a01, o0, o1, w10, w11, w20, w21, w30, w31, w40, w41, w50, w51, w60, w61, w70, w71, w80, w81, w90, w91, wa0, wa1⟩ := idx_facts t
  have hv : (V m c main_v1 : S1x12.Idx → EReal) = shapeCast S1x12 (m ((c : Thread nD τ).loc main_arg4)) shapeCasts_S12_S1x12 := by
    dsimp only [Gen.V, Gen.hostOps0]; after_results; rfl
  funext j
  show V m c main_v1 (((cfg0.win 4).blk t).view.emb (ix2 (0 : Fin 1) j)) = _
  rw [hv]
  have he : ((cfg0.win 4).blk t).view.emb (ix2 (0 : Fin 1) j) = ix2 (0 : Fin 1) j :=
    ix2_of_val _ _ _ (by show win0_4.index t (0 : Fin 2) * 1 + 1 * 0 = 0; omega)
      (by show win0_4.index t (1 : Fin 2) * 12 + 1 * j.val = j.val; omega)
  rw [he]
  exact shapeCast_a_1a_apply _ _ (0 : Fin 1) j

theorem blkB2 (c : Dev nD) (t : Fin cfg0.N) :
    (fun j : Fin 8 => (iblk m c 6 t : Vec Ideal S1x8 .f32) (ix2 (0 : Fin 1) j)) = fun j => m ((c : Thread nD τ).loc main_arg6) (ix1 j) := by
  obtain ⟨a00, a01, o0, o1, w10, w11, w20, w21, w30, w31, w40, w41, w50, w51, w60, w61, w70, w71, w80, w81, w90, w91, wa0, wa1⟩ := idx_facts t
  have hv : (V m c main_v2 : S1x8.Idx → EReal) = shapeCast S1x8 (m ((c : Thread nD τ).loc main_arg6)) shapeCasts_S8_S1x8 := by
    dsimp only [Gen.V, Gen.hostOps0]; after_results; rfl
  funext j
  show V m c main_v2 (((cfg0.win 6).blk t).view.emb (ix2 (0 : Fin 1) j)) = _
  rw [hv]
  have he : ((cfg0.win 6).blk t).view.emb (ix2 (0 : Fin 1) j) = ix2 (0 : Fin 1) j :=
    ix2_of_val _ _ _ (by show win0_6.index t (0 : Fin 2) * 1 + 1 * 0 = 0; omega)
      (by show win0_6.index t (1 : Fin 2) * 8 + 1 * j.val = j.val; omega)
  rw [he]
  exact shapeCast_a_1a_apply _ _ (0 : Fin 1) j

theorem blkB3 (c : Dev nD) (t : Fin cfg0.N) :
    (fun j : Fin 6 => (iblk m c 8 t : Vec Ideal S1x6 .f32) (ix2 (0 : Fin 1) j)) = fun j => m ((c : Thread nD τ).loc main_arg8) (ix1 j) := by
  obtain ⟨a00, a01, o0, o1, w10, w11, w20, w21, w30, w31, w40, w41, w50, w51, w60, w61, w70, w71, w80, w81, w90, w91, wa0, wa1⟩ := idx_facts t
  have hv : (V m c main_v3 : S1x6.Idx → EReal) = shapeCast S1x6 (m ((c : Thread nD τ).loc main_arg8)) shapeCasts_S6_S1x6 := by
    dsimp only [Gen.V, Gen.hostOps0]; after_results; rfl
  funext j
  show V m c main_v3 (((cfg0.win 8).blk t).view.emb (ix2 (0 : Fin 1) j)) = _
  rw [hv]
  have he : ((cfg0.win 8).blk t).view.emb (ix2 (0 : Fin 1) j) = ix2 (0 : Fin 1) j :=
    ix2_of_val _ _ _ (by show win0_8.index t (0 : Fin 2) * 1 + 1 * 0 = 0; omega)
      (by show win0_8.index t (1 : Fin 2) * 6 + 1 * j.val = j.val; omega)
  rw [he]
  exact shapeCast_a_1a_apply _ _ (0 : Fin 1) j

theorem blkB4 (c : Dev nD) (t : Fin cfg0.N) :
    (fun j : Fin 2 => (iblk m c 10 t : Vec Ideal S1x2 .f32) (ix2 (0 : Fin 1) j)) = fun j => m ((c : Thread nD τ).loc main_arg10) (ix1 j) := by
  obtain ⟨a00, a01, o0, o1, w10, w11, w20, w21, w30, w31, w40, w41, w50, w51, w60, w61, w70, w71, w80, w81, w90, w91, wa0, wa1⟩ := idx_facts t
  have hv : (V m c main_v4 : S1x2.Idx → EReal) = shapeCast S1x2 (m ((c : Thread nD τ).loc main_arg10)) shapeCasts_S2_S1x2 := by
    dsimp only [Gen.V, Gen.hostOps0]; after_results; rfl
  funext j
  show V m c main_v4 (((cfg0.win 10).blk t).view.emb (ix2 (0 : Fin 1) j)) = _
  rw [hv]
  have he : ((cfg0.win 10).blk t).view.emb (ix2 (0 : Fin 1) j) = ix2 (0 : Fin 1) j :=
    ix2_of_val _ _ _ (by show win0_10.index t (0 : Fin 2) * 1 + 1 * 0 = 0; omega)
      (by show win0_10.index t (1 : Fin 2) * 2 + 1 * j.val = j.val; omega)
  rw [he]
  exact shapeCast_a_1a_apply _ _ (0 : Fin 1) j

/-! ## What a point writes back -/

/-- WHAT POINT t WRITES BACK is block t of the result: row r of its input block is row 16384 t + r of the input, and its
    output block sits at the same rows, at column block 0. -/
theorem flushed_eq (c : Dev nD) (t : Fin cfg0.N) :
    (dats m 0 c).flushed 11 t = ((cfg0.win 11).blk t).view.read (Elt Ideal) (result m c) := by
  obtain ⟨a00, a01, o0, o1, w10, w11, w20, w21, w30, w31, w40, w41, w50, w51, w60, w61, w70, w71, w80, w81, w90, w91, wa0, wa1⟩ := idx_facts t
  rw [flushed11_A, out_tile]
  funext j
  show tileOut (iblk m c 0 t) (iblk m c 1 t) (iblk m c 2 t) (iblk m c 3 t) (iblk m c 4 t) (iblk m c 5 t) (iblk m c 6 t)
      (iblk m c 7 t) (iblk m c 8 t) (iblk m c 9 t) (iblk m c 10 t) j = result m c (((cfg0.win 11).blk t).view.emb j)
  unfold tileOut result network
  rw [blkW0, blkB0, blkW1, blkB1, blkW2, blkB2, blkW3, blkB3, blkW4, blkB4]
  have e1 : ((cfg0.win 11).blk t).view.emb j 1 = j 1 :=
    Fin.ext (by show win0_11.index t (1 : Fin 2) * 2 + 1 * (j 1).val = (j 1).val; omega)
  have e0 : (fun k : Fin 64 => (iblk m c 0 t : Vec Ideal S16384x64 .f32) (ix2 (j 0) k))
      = fun k => m ((c : Thread nD τ).loc main_arg0) (ix2 (((cfg0.win 11).blk t).view.emb j 0) k) :=
    funext fun k => by
      refine Eq.trans ?_ (congrFun (V_main_arg0 m c) _)
      show V m c main_arg0 (((cfg0.win 0).blk t).view.emb (ix2 (j 0) k)) = _
      refine congrArg _ (ix2_of_val _ _ _ ?_ ?_)
      · show win0_0.index t (0 : Fin 2) * 16384 + 1 * (j 0).val = win0_11.index t (0 : Fin 2) * 16384 + 1 * (j 0).val
        omega
      · show win0_0.index t (1 : Fin 2) * 64 + 1 * k.val = k.val
        omega
  rw [e0, e1]

/-! ## The cover, and the array after the run -/

/-- An index of the result is in point t's block iff each coordinate is in the block's range on its axis. -/
theorem mem_blk (t : Fin cfg0.N) (i : S1048576x2.Idx) :
    i ∈ ((cfg0.win 11).blk t).view.set ↔ ∀ a : Fin 2, win0_11.index t a * S16384x2.size a ≤ (i a).val ∧ (i a).val < win0_11.index t a * S16384x2.size a + S16384x2.size a := by
  show i ∈ ((View.whole main_v5).slice (win0_11.rect t)).set ↔ _
  rw [View.set_slice_whole, Rect.mem_set_unit]
  exact Iff.rfl

/-- EVERY INDEX IS COVERED: (r, q) lies in the block that point r / 16384 writes back. -/
theorem cover (i : S1048576x2.Idx) : ∃ t : Fin cfg0.N, (cfg0.win 11).flush t = true ∧ i ∈ ((cfg0.win 11).blk t).view.set := by
  have hi0 : (i 0).val < 1048576 := (i 0).isLt
  have hi1 : (i 1).val < 2 := (i 1).isLt
  have hN : grid0.N = 64 := N_0
  have ht : (i 0).val / 16384 < cfg0.N := by show (i 0).val / 16384 < grid0.N; omega
  obtain ⟨a00, a01, o0, o1, -⟩ := idx_facts ⟨(i 0).val / 16384, ht⟩
  refine ⟨⟨(i 0).val / 16384, ht⟩, flush0_11 _, ?_⟩
  rw [mem_blk]
  intro a
  match a with
  | ⟨0, _⟩ =>
    show win0_11.index ⟨(i 0).val / 16384, ht⟩ (0 : Fin 2) * 16384 ≤ (i 0).val ∧ (i 0).val < win0_11.index ⟨(i 0).val / 16384, ht⟩ (0 : Fin 2) * 16384 + 16384
    rw [o0]
    show (i 0).val / 16384 * 16384 ≤ (i 0).val ∧ (i 0).val < (i 0).val / 16384 * 16384 + 16384
    omega
  | ⟨1, _⟩ =>
    show win0_11.index ⟨(i 0).val / 16384, ht⟩ (1 : Fin 2) * 2 ≤ (i 1).val ∧ (i 1).val < win0_11.index ⟨(i 0).val / 16384, ht⟩ (1 : Fin 2) * 2 + 2
    rw [o1]
    omega

/-- THE ARRAY AFTER THE RUN is the result. -/
theorem final (c : Dev nD) : (dats m 0 c).arrAt 11 cfg0.N = result m c :=
  (dats m 0 c).arrAt_eq_of_cover 11 (result m c) (fun t _ => flushed_eq m c t) cover

/-- THE KERNEL'S RUN, READ: the result array ends at the network of the arguments, the arguments unchanged. -/
theorem run : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.Value.run_blocks m ρ)

end Cert.KernelIdeal.Whole

end
-- ==== Proof.RefRows.lean ====
/-
  What the reference computes, row by row: its result term (five dot_general's, each followed by the bias vector broadcast
  to [1, N] and then down the rows and, but for the last, a maximum with the zero constant broadcast from a scalar), read
  at row r and column q, is the network Cert.Mlp.mlpRow applied to row r of the input — ref_rows — and so the whole result
  is Cert.Mlp.network of the arguments — ref_network. Layer by layer it is Cert.Dense.host_affine (the product and the
  bias) and Cert.Dense.relu_host (the maximum), outermost first; the coordinate facts host_affine asks of each dimension record are
  the generated read-at-an-index module's (lhs_main_vN_0 ... rhs_main_vN_1).
-/
import proofs.«159408_j7791070675691_2_alg».proof.Proof.Gen.ReferenceIdeal.Read
import proofs.«159408_j7791070675691_2_alg».proof.Proof.MlpRow

noncomputable section

namespace Cert.ReferenceIdeal.Rows

open Cert.ReferenceIdeal Cert.ReferenceIdeal.Read Cert.Dense Cert.Mlp Idealize.ShloMosaic Idealize.ShloMosaic.ValueIdx

/-- THE REFERENCE, ROW BY ROW: its result at (r, q) is the network on row r of the input. -/
theorem ref_rows (x0 : (⟨S1048576x64, .f32⟩ : BufTy).Contents (Elt Ideal)) (x1 : (⟨S64x32, .f32⟩ : BufTy).Contents (Elt Ideal))
    (x2 : (⟨S32, .f32⟩ : BufTy).Contents (Elt Ideal)) (x3 : (⟨S32x12, .f32⟩ : BufTy).Contents (Elt Ideal))
    (x4 : (⟨S12, .f32⟩ : BufTy).Contents (Elt Ideal)) (x5 : (⟨S12x8, .f32⟩ : BufTy).Contents (Elt Ideal))
    (x6 : (⟨S8, .f32⟩ : BufTy).Contents (Elt Ideal)) (x7 : (⟨S8x6, .f32⟩ : BufTy).Contents (Elt Ideal))
    (x8 : (⟨S6, .f32⟩ : BufTy).Contents (Elt Ideal)) (x9 : (⟨S6x2, .f32⟩ : BufTy).Contents (Elt Ideal))
    (x10 : (⟨S2, .f32⟩ : BufTy).Contents (Elt Ideal)) (r : Fin 1048576) (q : Fin 2) :
    val_main_v23 (F := Ideal) x0 x1 x2 x3 x4 x5 x6 x7 x8 x9 x10 (ix2 r q)
      = mlpRow x1 (fun j => x2 (ix1 j)) x3 (fun j => x4 (ix1 j)) x5 (fun j => x6 (ix1 j)) x7 (fun j => x8 (ix1 j))
          x9 (fun j => x10 (ix1 j)) (fun k => x0 (ix2 r k)) q := by
  rw [← val_main_v23_eq]
  unfold mlpRow
  refine (host_affine dot_S1048576x6_S6x2_S1048576x2_1_0_0_1_n_n rfl rfl lhs_main_v20_0 lhs_main_v20_1 rhs_main_v20_0 rhs_main_v20_1 _ x9 x10 _ _ r q).trans ?_
  refine congrArg (fun h => affine x9 _ h q) (funext fun k4 => ?_)
  refine (relu_host _ _ r k4).trans ?_
  refine congrArg (fun h => relu h k4) (funext fun j3 => ?_)
  refine (host_affine dot_S1048576x8_S8x6_S1048576x6_1_0_0_1_n_n rfl rfl lhs_main_v15_0 lhs_main_v15_1 rhs_main_v15_0 rhs_main_v15_1 _ x7 x8 _ _ r j3).trans ?_
  refine congrArg (fun h => affine x7 _ h j3) (funext fun k3 => ?_)
  refine (relu_host _ _ r k3).trans ?_
  refine congrArg (fun h => relu h k3) (funext fun j2 => ?_)
  refine (host_affine dot_S1048576x12_S12x8_S1048576x8_1_0_0_1_n_n rfl rfl lhs_main_v10_0 lhs_main_v10_1 rhs_main_v10_0 rhs_main_v10_1 _ x5 x6 _ _ r j2).trans ?_
  refine congrArg (fun h => affine x5 _ h j2) (funext fun k2 => ?_)
  refine (relu_host _ _ r k2).trans ?_
  refine congrArg (fun h => relu h k2) (funext fun j1 => ?_)
  refine (host_affine dot_S1048576x32_S32x12_S1048576x12_1_0_0_1_n_n rfl rfl lhs_main_v5_0 lhs_main_v5_1 rhs_main_v5_0 rhs_main_v5_1 _ x3 x4 _ _ r j1).trans ?_
  refine congrArg (fun h => affine x3 _ h j1) (funext fun k1 => ?_)
  refine (relu_host _ _ r k1).trans ?_
  refine congrArg (fun h => relu h k1) (funext fun j0 => ?_)
  exact host_affine dot_S1048576x64_S64x32_S1048576x32_1_0_0_1_n_n rfl rfl lhs_main_v0_0 lhs_main_v0_1 rhs_main_v0_0 rhs_main_v0_1 x0 x1 x2 _ _ r j0

/-- THE REFERENCE'S RESULT is the network of the arguments. -/
theorem ref_network (x0 : (⟨S1048576x64, .f32⟩ : BufTy).Contents (Elt Ideal)) (x1 : (⟨S64x32, .f32⟩ : BufTy).Contents (Elt Ideal))
    (x2 : (⟨S32, .f32⟩ : BufTy).Contents (Elt Ideal)) (x3 : (⟨S32x12, .f32⟩ : BufTy).Contents (Elt Ideal))
    (x4 : (⟨S12, .f32⟩ : BufTy).Contents (Elt Ideal)) (x5 : (⟨S12x8, .f32⟩ : BufTy).Contents (Elt Ideal))
    (x6 : (⟨S8, .f32⟩ : BufTy).Contents (Elt Ideal)) (x7 : (⟨S8x6, .f32⟩ : BufTy).Contents (Elt Ideal))
    (x8 : (⟨S6, .f32⟩ : BufTy).Contents (Elt Ideal)) (x9 : (⟨S6x2, .f32⟩ : BufTy).Contents (Elt Ideal))
    (x10 : (⟨S2, .f32⟩ : BufTy).Contents (Elt Ideal)) :
    val_main_v23 (F := Ideal) x0 x1 x2 x3 x4 x5 x6 x7 x8 x9 x10 = network x0 x1 x2 x3 x4 x5 x6 x7 x8 x9 x10 := by
  funext i
  obtain ⟨r, q, rfl⟩ : ∃ (r : Fin 1048576) (q : Fin 2), i = ix2 r q := ⟨i 0, i 1, eq_ix2 i⟩
  exact ref_rows x0 x1 x2 x3 x4 x5 x6 x7 x8 x9 x10 r q

end Cert.ReferenceIdeal.Rows

end
-- ==== Proof.lean ====
/-
  The certificate of a five-layer dense network (widths 64, 32, 12, 8, 6, 2; a rectifier after each layer but the last)
  evaluated by a row-tiled kernel against its whole-array reference.

  The kernel walks the 1048576 rows of the input in 64 tiles of 16384 rows, each tile in four chunks of 4096 rows inside a
  counted loop; per chunk it rounds the activations and the weights to bf16, multiplies on the matrix unit into a zero
  accumulator, adds the bias row and takes the maximum with zero, layer after layer. The reference applies the same five
  layers to the whole array with dot_general. On extended reals a change of float format is the identity and both products
  are the plain sum over the contracted axis, so both programs compute, at row r and column q, ONE function of row r of the
  input and of the weights: Cert.Mlp.mlpRow. Every row of the result is computed from the same row of the input alone, so
  the tiling does not matter, and no law beyond reindexing a finite sum is used: the precondition is never opened.

  * Proof/LibDense.lean: one dense layer and the rectifier read at (p, j), in the kernel's and in the host's spelling.
  * Proof/MlpRow.lean: the row function mlpRow and the whole-array function network.
  * Proof/KernelChunk.lean: the chunk computation is mlpRow on each row of the chunk.
  * Proof/KernelTile.lean: after the four trips the output's staging buffer holds the tile function of the point's blocks.
  * Proof/KernelArray.lean: the blocks are those of network of the arguments, they cover the result: the kernel's run.
  * Proof/RefRows.lean: the reference's result term is network of the arguments.
  Here: the three frames (the kernels' are the generated frame certificates, the reference's its generated run with the
  result dropped), preserves (the idealization rewrote nothing) and algebraic (both runs end at network of arguments that
  agree).
-/
import proofs.«159408_j7791070675691_2_alg».proof.Defs
import proofs.«159408_j7791070675691_2_alg».proof.Proof.Gen.Kernel
import proofs.«159408_j7791070675691_2_alg».proof.Proof.Gen.Kernel.Skeleton
import proofs.«159408_j7791070675691_2_alg».proof.Proof.Gen.Kernel.Loops
import proofs.«159408_j7791070675691_2_alg».proof.Proof.Gen.Kernel.Launch
import proofs.«159408_j7791070675691_2_alg».proof.Proof.Gen.Kernel.Points
import proofs.«159408_j7791070675691_2_alg».proof.Proof.Gen.Kernel.Frame
import proofs.«159408_j7791070675691_2_alg».proof.Proof.Gen.KernelIdeal
import proofs.«159408_j7791070675691_2_alg».proof.Proof.Gen.KernelIdeal.Skeleton
import proofs.«159408_j7791070675691_2_alg».proof.Proof.Gen.KernelIdeal.Loops
import proofs.«159408_j7791070675691_2_alg».proof.Proof.Gen.KernelIdeal.Launch
import proofs.«159408_j7791070675691_2_alg».proof.Proof.Gen.KernelIdeal.Points
import proofs.«159408_j7791070675691_2_alg».proof.Proof.Gen.KernelIdeal.Frame
import proofs.«159408_j7791070675691_2_alg».proof.Proof.Gen.ReferenceIdeal
import proofs.«159408_j7791070675691_2_alg».proof.Proof.Gen.Pre_finite_inputs
import proofs.«159408_j7791070675691_2_alg».proof.Proof.Gen.KernelIdeal.Value
import proofs.«159408_j7791070675691_2_alg».proof.Proof.Gen.ReferenceIdeal.Run
import proofs.«159408_j7791070675691_2_alg».proof.Proof.Gen.ReferenceIdeal.Read
import proofs.«159408_j7791070675691_2_alg».proof.Proof.KernelArray
import proofs.«159408_j7791070675691_2_alg».proof.Proof.RefRows
import Idealize.ShloMosaic.Adequacy
import Idealize.ShloMosaic.Init

noncomputable section

namespace Cert.Proof

open Idealize.ShloMosaic Idealize.SL.Sem

/-- The kernel as printed runs and leaves its arguments: the generated frame certificate. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: nothing to preserve. -/
theorem preserves : Cert.preserves_Kernel_KernelIdeal := trivial

/-- On extended reals both programs end with the network applied to every row of the input: the kernel's result array by
    Whole.run, the reference's by its generated run and Rows.ref_network, of arguments that agree. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v23_eq, Cert.ReferenceIdeal.Rows.ref_network, a0, a1, a2, a3, a4, a5, a6, a7, a8, a9, a10]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
